-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v91)) (v1 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_v90) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S2x262144 : Shape := ⟨2, ![2, 262144]⟩
abbrev S128x128 : Shape := ⟨2, ![128, 128]⟩
abbrev S128 : Shape := ⟨1, ![128]⟩
abbrev S128x32 : Shape := ⟨2, ![128, 32]⟩
abbrev S32 : Shape := ⟨1, ![32]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S128x32 1) : IVec S_ 1 :=
  let main_c_5 : IVec S_ 1 := constantI S_ 1 1#1
  let main_v17 : IVec S_ 1 := (fun x v => Host.reduce IntOp.andi x v reducesTo_S128x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S16384x128 .f32) (main_arg1 : IVec S2x262144 32) (main_arg2 : FVec F S128x128 .f32) (main_arg3 : FVec F S128 .f32) (main_arg4 : FVec F S128x32 .f32) (main_arg5 : FVec F S32 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x32 .f32 := Host.absf main_arg4
  let main_cst_4 : FVec F S_ .f32 := constant S_ .f32 0x7F800000#32
  let main_v15 : FVec F S128x32 .f32 := broadcastInDim S128x32 ![] bcast_S_S128x32 main_cst_4
  let main_v16 : IVec S128x32 1 := cmpf .olt main_v14 main_v15
  fn_part1 (F := F) main_arg5 main_v13 main_v16
-- ==== Kernel.lean ====
abbrev S16384x128 : Shape := ⟨2, ![16384, 128]⟩
abbrev S2x262144 : Shape := ⟨2, ![2, 262144]⟩
abbrev S128x128 : Shape := ⟨2, ![128, 128]⟩
abbrev S128 : Shape := ⟨1, ![128]⟩
abbrev S128x32 : Shape := ⟨2, ![128, 32]⟩
abbrev S32 : Shape := ⟨1, ![32]⟩
abbrev S1x262144 : Shape := ⟨2, ![1, 262144]⟩
abbrev S262144 : Shape := ⟨1, ![262144]⟩
abbrev S16384 : Shape := ⟨1, ![16384]⟩
abbrev S278528 : Shape := ⟨1, ![278528]⟩
abbrev S_ : Shape := ⟨0, ![]⟩
abbrev S278528x1 : Shape := ⟨2, ![278528, 1]⟩
abbrev S278528x128 : Shape := ⟨2, ![278528, 128]⟩
abbrev S1x128 : Shape := ⟨2, ![1, 128]⟩
abbrev S16384x32 : Shape := ⟨2, ![16384, 32]⟩
abbrev S278528x32 : Shape := ⟨2, ![278528, 32]⟩
abbrev S1x32 : Shape := ⟨2, ![1, 32]⟩
abbrev S16384x16384 : Shape := ⟨2, ![16384, 16384]⟩
abbrev S2048x32 : Shape := ⟨2, ![2048, 32]⟩
abbrev S2048x2048 : Shape := ⟨2, ![2048, 2048]⟩
abbrev S32x2048 : Shape := ⟨2, ![32, 2048]⟩

abbrev nBuf : Space → Nat
  | .hbm => 126
  | .vmem => 6
  | .smem => 0
  | _ => 0

abbrev bufTy : (tb : Table) → Fin (tcTables nBuf tb) → BufTy
  | .hbm, ⟨0, _⟩ => ⟨S16384x128, .f32⟩
  | .hbm, ⟨1, _⟩ => ⟨S2x262144, .i32⟩
  | .hbm, ⟨2, _⟩ => ⟨S128x128, .f32⟩
  | .hbm, ⟨3, _⟩ => ⟨S128, .f32⟩
  | .hbm, ⟨4, _⟩ => ⟨S128x32, .f32⟩
  | .hbm, ⟨5, _⟩ => ⟨S32, .f32⟩
  | .hbm, ⟨6, _⟩ => ⟨S1x262144, .i32⟩
  | .hbm, ⟨7, _⟩ => ⟨S262144, .i32⟩
  | .hbm, ⟨8, _⟩ => ⟨S1x262144, .i32⟩
  | .hbm, ⟨9, _⟩ => ⟨S262144, .i32⟩
  | .hbm, ⟨10, _⟩ => ⟨S16384x128, .f32⟩
  | .hbm, ⟨11, _⟩ => ⟨S16384, .i32⟩
  | .hbm, ⟨12, _⟩ => ⟨S278528, .i32⟩
  | .hbm, ⟨13, _⟩ => ⟨S278528, .i32⟩
  | .hbm, ⟨14, _⟩ => ⟨S_, .f32⟩
  | .hbm, ⟨15, _⟩ => ⟨S278528, .f32⟩
  | .hbm, ⟨16, _⟩ => ⟨S_, .f32⟩
  | .hbm, ⟨17, _⟩ => ⟨S16384, .f32⟩
  | .hbm, ⟨18, _⟩ => ⟨S278528x1, .i32⟩
  | .hbm, ⟨19, _⟩ => ⟨S16384, .f32⟩
  | .hbm, ⟨20, _⟩ => ⟨S_, .f32⟩
  | .hbm, ⟨21, _⟩ => ⟨S16384, .f32⟩
  | .hbm, ⟨22, _⟩ => ⟨S16384, .i1⟩
  | .hbm, ⟨23, _⟩ => ⟨S16384, .f32⟩
  | .hbm, ⟨24, _⟩ => ⟨S_, .f32⟩
  | .hbm, ⟨25, _⟩ => ⟨S_, .f32⟩
  | .hbm, ⟨26, _⟩ => ⟨S16384, .f32⟩
  | .hbm, ⟨27, _⟩ => ⟨S16384, .f32⟩
  | .hbm, ⟨28, _⟩ => ⟨S_, .i32⟩
  | .hbm, ⟨29, _⟩ => ⟨S278528, .i32⟩
  | .hbm, ⟨30, _⟩ => ⟨S278528, .i1⟩
  | .hbm, ⟨31, _⟩ => ⟨S_, .i32⟩
  | .hbm, ⟨32, _⟩ => ⟨S278528, .i32⟩
  | .hbm, ⟨33, _⟩ => ⟨S278528, .i32⟩
  | .hbm, ⟨34, _⟩ => ⟨S278528, .i32⟩
  | .hbm, ⟨35, _⟩ => ⟨S278528x1, .i32⟩
  | .hbm, ⟨36, _⟩ => ⟨S278528, .f32⟩
  | .hbm, ⟨37, _⟩ => ⟨S_, .i32⟩
  | .hbm, ⟨38, _⟩ => ⟨S278528, .i32⟩
  | .hbm, ⟨39, _⟩ => ⟨S278528, .i1⟩
  | .hbm, ⟨40, _⟩ => ⟨S_, .i32⟩
  | .hbm, ⟨41, _⟩ => ⟨S278528, .i32⟩
  | .hbm, ⟨42, _⟩ => ⟨S278528, .i32⟩
  | .hbm, ⟨43, _⟩ => ⟨S278528, .i32⟩
  | .hbm, ⟨44, _⟩ => ⟨S278528x1, .i32⟩
  | .hbm, ⟨45, _⟩ => ⟨S278528, .f32⟩
  | .hbm, ⟨46, _⟩ => ⟨S278528, .f32⟩
  | .hbm, ⟨47, _⟩ => ⟨S_, .i32⟩
  | .hbm, ⟨48, _⟩ => ⟨S278528, .i32⟩
  | .hbm, ⟨49, _⟩ => ⟨S278528, .i1⟩
  | .hbm, ⟨50, _⟩ => ⟨S_, .i32⟩
  | .hbm, ⟨51, _⟩ => ⟨S278528, .i32⟩
  | .hbm, ⟨52, _⟩ => ⟨S278528, .i32⟩
  | .hbm, ⟨53, _⟩ => ⟨S278528, .i32⟩
  | .hbm, ⟨54, _⟩ => ⟨S278528x1, .i32⟩
  | .hbm, ⟨55, _⟩ => ⟨S278528x128, .f32⟩
  | .hbm, ⟨56, _⟩ => ⟨S278528x1, .f32⟩
  | .hbm, ⟨57, _⟩ => ⟨S278528x128, .f32⟩
  | .hbm, ⟨58, _⟩ => ⟨S278528x128, .f32⟩
  | .hbm, ⟨59, _⟩ => ⟨S_, .f32⟩
  | .hbm, ⟨60, _⟩ => ⟨S16384x128, .f32⟩
  | .hbm, ⟨61, _⟩ => ⟨S278528x1, .i32⟩
  | .hbm, ⟨62, _⟩ => ⟨S16384x128, .f32⟩
  | .hbm, ⟨63, _⟩ => ⟨S1x128, .f32⟩
  | .hbm, ⟨64, _⟩ => ⟨S16384x128, .f32⟩
  | .hbm, ⟨65, _⟩ => ⟨S16384x128, .f32⟩
  | .hbm, ⟨66, _⟩ => ⟨S_, .f32⟩
  | .hbm, ⟨67, _⟩ => ⟨S16384x128, .f32⟩
  | .hbm, ⟨68, _⟩ => ⟨S16384x128, .f32⟩
  | .hbm, ⟨69, _⟩ => ⟨S16384x32, .f32⟩
  | .hbm, ⟨70, _⟩ => ⟨S16384, .i32⟩
  | .hbm, ⟨71, _⟩ => ⟨S278528, .i32⟩
  | .hbm, ⟨72, _⟩ => ⟨S278528, .i32⟩
  | .hbm, ⟨73, _⟩ => ⟨S_, .f32⟩
  | .hbm, ⟨74, _⟩ => ⟨S278528, .f32⟩
  | .hbm, ⟨75, _⟩ => ⟨S_, .f32⟩
  | .hbm, ⟨76, _⟩ => ⟨S16384, .f32⟩
  | .hbm, ⟨77, _⟩ => ⟨S278528x1, .i32⟩
  | .hbm, ⟨78, _⟩ => ⟨S16384, .f32⟩
  | .hbm, ⟨79, _⟩ => ⟨S_, .f32⟩
  | .hbm, ⟨80, _⟩ => ⟨S16384, .f32⟩
  | .hbm, ⟨81, _⟩ => ⟨S16384, .i1⟩
  | .hbm, ⟨82, _⟩ => ⟨S16384, .f32⟩
  | .hbm, ⟨83, _⟩ => ⟨S_, .f32⟩
  | .hbm, ⟨84, _⟩ => ⟨S_, .f32⟩
  | .hbm, ⟨85, _⟩ => ⟨S16384, .f32⟩
  | .hbm, ⟨86, _⟩ => ⟨S16384, .f32⟩
  | .hbm, ⟨87, _⟩ => ⟨S_, .i32⟩
  | .hbm, ⟨88, _⟩ => ⟨S278528, .i32⟩
  | .hbm, ⟨89, _⟩ => ⟨S278528, .i1⟩
  | .hbm, ⟨90, _⟩ => ⟨S_, .i32⟩
  | .hbm, ⟨91, _⟩ => ⟨S278528, .i32⟩
  | .hbm, ⟨92, _⟩ => ⟨S278528, .i32⟩
  | .hbm, ⟨93, _⟩ => ⟨S278528, .i32⟩
  | .hbm, ⟨94, _⟩ => ⟨S278528x1, .i32⟩
  | .hbm, ⟨95, _⟩ => ⟨S278528, .f32⟩
  | .hbm, ⟨96, _⟩ => ⟨S_, .i32⟩
  | .hbm, ⟨97, _⟩ => ⟨S278528, .i32⟩
  | .hbm, ⟨98, _⟩ => ⟨S278528, .i1⟩
  | .hbm, ⟨99, _⟩ => ⟨S_, .i32⟩
  | .hbm, ⟨100, _⟩ => ⟨S278528, .i32⟩
  | .hbm, ⟨101, _⟩ => ⟨S278528, .i32⟩
  | .hbm, ⟨102, _⟩ => ⟨S278528, .i32⟩
  | .hbm, ⟨103, _⟩ => ⟨S278528x1, .i32⟩
  | .hbm, ⟨104, _⟩ => ⟨S278528, .f32⟩
  | .hbm, ⟨105, _⟩ => ⟨S278528, .f32⟩
  | .hbm, ⟨106, _⟩ => ⟨S_, .i32⟩
  | .hbm, ⟨107, _⟩ => ⟨S278528, .i32⟩
  | .hbm, ⟨108, _⟩ => ⟨S278528, .i1⟩
  | .hbm, ⟨109, _⟩ => ⟨S_, .i32⟩
  | .hbm, ⟨110, _⟩ => ⟨S278528, .i32⟩
  | .hbm, ⟨111, _⟩ => ⟨S278528, .i32⟩
  | .hbm, ⟨112, _⟩ => ⟨S278528, .i32⟩
  | .hbm, ⟨113, _⟩ => ⟨S278528x1, .i32⟩
  | .hbm, ⟨114, _⟩ => ⟨S278528x32, .f32⟩
  | .hbm, ⟨115, _⟩ => ⟨S278528x1, .f32⟩
  | .hbm, ⟨116, _⟩ => ⟨S278528x32, .f32⟩
  | .hbm, ⟨117, _⟩ => ⟨S278528x32, .f32⟩
  | .hbm, ⟨118, _⟩ => ⟨S_, .f32⟩
  | .hbm, ⟨119, _⟩ => ⟨S16384x32, .f32⟩
  | .hbm, ⟨120, _⟩ => ⟨S278528x1, .i32⟩
  | .hbm, ⟨121, _⟩ => ⟨S16384x32, .f32⟩
  | .hbm, ⟨122, _⟩ => ⟨S1x32, .f32⟩
  | .hbm, ⟨123, _⟩ => ⟨S16384x32, .f32⟩
  | .hbm, ⟨124, _⟩ => ⟨S16384x32, .f32⟩
  | .hbm, ⟨125, _⟩ => ⟨S16384x16384, .f32⟩
  | .local _ .vmem, ⟨0, _⟩ => ⟨S2048x32, .f32⟩
  | .local _ .vmem, ⟨1, _⟩ => ⟨S2048x32, .f32⟩
  | .local _ .vmem, ⟨2, _⟩ => ⟨S2048x32, .f32⟩
  | .local _ .vmem, ⟨3, _⟩ => ⟨S2048x32, .f32⟩
  | .local _ .vmem, ⟨4, _⟩ => ⟨S2048x2048, .f32⟩
  | .local _ .vmem, ⟨5, _⟩ => ⟨S2048x2048, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  concatenates_S262144_S16384_S278528_d0 : Shape.Concatenates [S262144, S16384] S278528 0
  bcast_S_S278528 : S_.BroadcastsInDim S278528 (![] : Fin 0 → Fin S278528.rank)
  bcast_S_S16384 : S_.BroadcastsInDim S16384 (![] : Fin 0 → Fin S16384.rank)
  bcast_S278528_S278528x1_0 : S278528.BroadcastsInDim S278528x1 (![0] : Fin 1 → Fin S278528x1.rank)
  bcast_S278528x1_S278528x128_0_1 : S278528x1.BroadcastsInDim S278528x128 (![0, 1] : Fin 2 → Fin S278528x128.rank)
  bcast_S_S16384x128 : S_.BroadcastsInDim S16384x128 (![] : Fin 0 → Fin S16384x128.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S278528x1_S278528x32_0_1 : S278528x1.BroadcastsInDim S278528x32 (![0, 1] : Fin 2 → Fin S278528x32.rank)
  bcast_S_S16384x32 : S_.BroadcastsInDim S16384x32 (![] : Fin 0 → Fin S16384x32.rank)
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  bitsLt_bf16_f32 : FTy.bits .bf16 < FTy.bits .f32
  transposes_S2048x32_p1_0_S32x2048 : S2048x32.Transposes [1, 0] S32x2048
  inb_S2048x2048_S2048x2048_0_0 : ∀ a, (![0, 0] : Fin 2 → Nat) a + S2048x2048.size a ≤ S2048x2048.size a
  h_S2048x2048 : 0 < S2048x2048.numel
  dot_S16384x128_S128x128_S16384x128_1_0_0_1_n_n_wf : DotDims.WF S16384x128 S128x128 S16384x128 [1] [0] [0] [1] [] []
  scatter_S16384_S278528x1_S278528_n_0_0_1_wf : ScatterDims.WF S16384 S278528x1 S278528 [] [0] [0] 1
  gather_S16384_S278528x1_S278528_n_0_n_n_0_1_1_wf : GatherDims.WF S16384 S278528x1 S278528 [] [0] [] [0] [] 1 ![1]
  gather_S16384x128_S278528x1_S278528x128_1_0_n_n_0_1_1128_wf : GatherDims.WF S16384x128 S278528x1 S278528x128 [1] [0] [] [0] [] 1 ![1, 128]
  scatter_S16384x128_S278528x1_S278528x128_1_0_0_1_wf : ScatterDims.WF S16384x128 S278528x1 S278528x128 [1] [0] [0] 1
  dot_S16384x128_S128x32_S16384x32_1_0_0_1_n_n_wf : DotDims.WF S16384x128 S128x32 S16384x32 [1] [0] [0] [1] [] []
  gather_S16384x32_S278528x1_S278528x32_1_0_n_n_0_1_132_wf : GatherDims.WF S16384x32 S278528x1 S278528x32 [1] [0] [] [0] [] 1 ![1, 32]
  scatter_S16384x32_S278528x1_S278528x32_1_0_0_1_wf : ScatterDims.WF S16384x32 S278528x1 S278528x32 [1] [0] [0] 1
  dot_S2048x32_S32x2048_S2048x2048_1_0_0_1_n_n_wf : DotDims.WF S2048x32 S32x2048 S2048x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x32.size a ≤ S16384x32.size a
  hwx0_0 : ∀ i : grid0.Coords, EltTy.bits .f32 = 32 ∨ (Rect.block (s := S16384x32) S2048x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x32.size a ≤ S16384x32.size a
  hwx0_1 : ∀ i : grid0.Coords, EltTy.bits .f32 = 32 ∨ (Rect.block (s := S16384x32) S2048x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S16384x16384.size a
  hwx0_2 : ∀ i : grid0.Coords, EltTy.bits .f32 = 32 ∨ (Rect.block (s := S16384x16384) S2048x2048.size (cc0_transform_2 i) (hinb0_2 i)).WholeWords (EltTy.packing .f32)

variable [Facts₀]

def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def scatter_S16384_S278528x1_S278528_n_0_0_1 : ScatterDims S16384 S278528x1 S278528 where
  updateWindowDims := []
  insertedWindowDims := [0]
  scatterDimsToOperandDims := [0]
  indexVectorDim := 1
  wf := scatter_S16384_S278528x1_S278528_n_0_0_1_wf
def gather_S16384_S278528x1_S278528_n_0_n_n_0_1_1 : GatherDims S16384 S278528x1 S278528 where
  offsetDims := []
  collapsedSliceDims := [0]
  operandBatchingDims := []
  startIndicesBatchingDims := []
  startIndexMap := [0]
  indexVectorDim := 1
  sliceSizes := ![1]
  wf := gather_S16384_S278528x1_S278528_n_0_n_n_0_1_1_wf
def gather_S16384x128_S278528x1_S278528x128_1_0_n_n_0_1_1128 : GatherDims S16384x128 S278528x1 S278528x128 where
  offsetDims := [1]
  collapsedSliceDims := [0]
  operandBatchingDims := []
  startIndicesBatchingDims := []
  startIndexMap := [0]
  indexVectorDim := 1
  sliceSizes := ![1, 128]
  wf := gather_S16384x128_S278528x1_S278528x128_1_0_n_n_0_1_1128_wf
def scatter_S16384x128_S278528x1_S278528x128_1_0_0_1 : ScatterDims S16384x128 S278528x1 S278528x128 where
  updateWindowDims := [1]
  insertedWindowDims := [0]
  scatterDimsToOperandDims := [0]
  indexVectorDim := 1
  wf := scatter_S16384x128_S278528x1_S278528x128_1_0_0_1_wf
def dot_S16384x128_S128x32_S16384x32_1_0_0_1_n_n : DotDims S16384x128 S128x32 S16384x32 where
  lhsContracting := [1]
  rhsContracting := [0]
  lhsNonContracting := [0]
  rhsNonContracting := [1]
  lhsBatch := []
  rhsBatch := []
  wf := dot_S16384x128_S128x32_S16384x32_1_0_0_1_n_n_wf
def gather_S16384x32_S278528x1_S278528x32_1_0_n_n_0_1_132 : GatherDims S16384x32 S278528x1 S278528x32 where
  offsetDims := [1]
  collapsedSliceDims := [0]
  operandBatchingDims := []
  startIndicesBatchingDims := []
  startIndexMap := [0]
  indexVectorDim := 1
  sliceSizes := ![1, 32]
  wf := gather_S16384x32_S278528x1_S278528x32_1_0_n_n_0_1_132_wf
def scatter_S16384x32_S278528x1_S278528x32_1_0_0_1 : ScatterDims S16384x32 S278528x1 S278528x32 where
  updateWindowDims := [1]
  insertedWindowDims := [0]
  scatterDimsToOperandDims := [0]
  indexVectorDim := 1
  wf := scatter_S16384x32_S278528x1_S278528x32_1_0_0_1_wf
def dot_S2048x32_S32x2048_S2048x2048_1_0_0_1_n_n : DotDims S2048x32 S32x2048 S2048x2048 where
  lhsContracting := [1]
  rhsContracting := [0]
  lhsNonContracting := [0]
  rhsNonContracting := [1]
  lhsBatch := []
  rhsBatch := []
  wf := dot_S2048x32_S32x2048_S2048x2048_1_0_0_1_n_n_wf

abbrev win0_0 : Pipeline.Window sig grid0 :=
  Pipeline.Window.ofSpec (Memref.whole main_v90) S2048x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v90) S2048x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v91) S2048x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x128 : Shape := ⟨2, ![16384, 128]⟩
abbrev S2x262144 : Shape := ⟨2, ![2, 262144]⟩
abbrev S128x128 : Shape := ⟨2, ![128, 128]⟩
abbrev S128 : Shape := ⟨1, ![128]⟩
abbrev S128x32 : Shape := ⟨2, ![128, 32]⟩
abbrev S32 : Shape := ⟨1, ![32]⟩
abbrev S1x262144 : Shape := ⟨2, ![1, 262144]⟩
abbrev S262144 : Shape := ⟨1, ![262144]⟩
abbrev S16384 : Shape := ⟨1, ![16384]⟩
abbrev S278528 : Shape := ⟨1, ![278528]⟩
abbrev S_ : Shape := ⟨0, ![]⟩
abbrev S278528x1 : Shape := ⟨2, ![278528, 1]⟩
abbrev S278528x128 : Shape := ⟨2, ![278528, 128]⟩
abbrev S1x128 : Shape := ⟨2, ![1, 128]⟩
abbrev S16384x32 : Shape := ⟨2, ![16384, 32]⟩
abbrev S278528x32 : Shape := ⟨2, ![278528, 32]⟩
abbrev S1x32 : Shape := ⟨2, ![1, 32]⟩
abbrev S32x16384 : Shape := ⟨2, ![32, 16384]⟩
abbrev S16384x16384 : Shape := ⟨2, ![16384, 16384]⟩

abbrev nBuf : Space → Nat
  | .hbm => 135
  | .vmem => 0
  | .smem => 0
  | _ => 0

abbrev hbmTy0_0 (i : Nat) : BufTy := match i % 128 with
  | 0 => ⟨S16384x128, .f32⟩
  | 1 => ⟨S2x262144, .i32⟩
  | 2 => ⟨S128x128, .f32⟩
  | 3 => ⟨S128, .f32⟩
  | 4 => ⟨S128x32, .f32⟩
  | 5 => ⟨S32, .f32⟩
  | 6 => ⟨S1x262144, .i32⟩
  | 7 => ⟨S262144, .i32⟩
  | 8 => ⟨S1x262144, .i32⟩
  | 9 => ⟨S262144, .i32⟩
  | 10 => ⟨S16384x128, .f32⟩
  | 11 => ⟨S16384, .i32⟩
  | 12 => ⟨S278528, .i32⟩
  | 13 => ⟨S278528, .i32⟩
  | 14 => ⟨S_, .f32⟩
  | 15 => ⟨S278528, .f32⟩
  | 16 => ⟨S_, .f32⟩
  | 17 => ⟨S16384, .f32⟩
  | 18 => ⟨S278528x1, .i32⟩
  | 19 => ⟨S16384, .f32⟩
  | 20 => ⟨S_, .f32⟩
  | 21 => ⟨S16384, .f32⟩
  | 22 => ⟨S16384, .i1⟩
  | 23 => ⟨S16384, .f32⟩
  | 24 => ⟨S_, .f32⟩
  | 25 => ⟨S_, .f32⟩
  | 26 => ⟨S16384, .f32⟩
  | 27 => ⟨S16384, .f32⟩
  | 28 => ⟨S_, .i32⟩
  | 29 => ⟨S278528, .i32⟩
  | 30 => ⟨S278528, .i1⟩
  | 31 => ⟨S_, .i32⟩
  | 32 => ⟨S278528, .i32⟩
  | 33 => ⟨S278528, .i32⟩
  | 34 => ⟨S278528, .i32⟩
  | 35 => ⟨S278528x1, .i32⟩
  | 36 => ⟨S278528, .f32⟩
  | 37 => ⟨S_, .i32⟩
  | 38 => ⟨S278528, .i32⟩
  | 39 => ⟨S278528, .i1⟩
  | 40 => ⟨S_, .i32⟩
  | 41 => ⟨S278528, .i32⟩
  | 42 => ⟨S278528, .i32⟩
  | 43 => ⟨S278528, .i32⟩
  | 44 => ⟨S278528x1, .i32⟩
  | 45 => ⟨S278528, .f32⟩
  | 46 => ⟨S278528, .f32⟩
  | 47 => ⟨S_, .i32⟩
  | 48 => ⟨S278528, .i32⟩
  | 49 => ⟨S278528, .i1⟩
  | 50 => ⟨S_, .i32⟩
  | 51 => ⟨S278528, .i32⟩
  | 52 => ⟨S278528, .i32⟩
  | 53 => ⟨S278528, .i32⟩
  | 54 => ⟨S278528x1, .i32⟩
  | 55 => ⟨S278528x128, .f32⟩
  | 56 => ⟨S278528x1, .f32⟩
  | 57 => ⟨S278528x128, .f32⟩
  | 58 => ⟨S278528x128, .f32⟩
  | 59 => ⟨S_, .f32⟩
  | 60 => ⟨S16384x128, .f32⟩
  | 61 => ⟨S278528x1, .i32⟩
  | 62 => ⟨S16384x128, .f32⟩
  | 63 => ⟨S1x128, .f32⟩
  | 64 => ⟨S16384x128, .f32⟩
  | 65 => ⟨S16384x128, .f32⟩
  | 66 => ⟨S_, .f32⟩
  | 67 => ⟨S16384x128, .f32⟩
  | 68 => ⟨S16384x128, .f32⟩
  | 69 => ⟨S16384x32, .f32⟩
  | 70 => ⟨S16384, .i32⟩
  | 71 => ⟨S278528, .i32⟩
  | 72 => ⟨S278528, .i32⟩
  | 73 => ⟨S_, .f32⟩
  | 74 => ⟨S278528, .f32⟩
  | 75 => ⟨S_, .f32⟩
  | 76 => ⟨S16384, .f32⟩
  | 77 => ⟨S278528x1, .i32⟩
  | 78 => ⟨S16384, .f32⟩
  | 79 => ⟨S_, .f32⟩
  | 80 => ⟨S16384, .f32⟩
  | 81 => ⟨S16384, .i1⟩
  | 82 => ⟨S16384, .f32⟩
  | 83 => ⟨S_, .f32⟩
  | 84 => ⟨S_, .f32⟩
  | 85 => ⟨S16384, .f32⟩
  | 86 => ⟨S16384, .f32⟩
  | 87 => ⟨S_, .i32⟩
  | 88 => ⟨S278528, .i32⟩
  | 89 => ⟨S278528, .i1⟩
  | 90 => ⟨S_, .i32⟩
  | 91 => ⟨S278528, .i32⟩
  | 92 => ⟨S278528, .i32⟩
  | 93 => ⟨S278528, .i32⟩
  | 94 => ⟨S278528x1, .i32⟩
  | 95 => ⟨S278528, .f32⟩
  | 96 => ⟨S_, .i32⟩
  | 97 => ⟨S278528, .i32⟩
  | 98 => ⟨S278528, .i1⟩
  | 99 => ⟨S_, .i32⟩
  | 100 => ⟨S278528, .i32⟩
  | 101 => ⟨S278528, .i32⟩
  | 102 => ⟨S278528, .i32⟩
  | 103 => ⟨S278528x1, .i32⟩
  | 104 => ⟨S278528, .f32⟩
  | 105 => ⟨S278528, .f32⟩
  | 106 => ⟨S_, .i32⟩
  | 107 => ⟨S278528, .i32⟩
  | 108 => ⟨S278528, .i1⟩
  | 109 => ⟨S_, .i32⟩
  | 110 => ⟨S278528, .i32⟩
  | 111 => ⟨S278528, .i32⟩
  | 112 => ⟨S278528, .i32⟩
  | 113 => ⟨S278528x1, .i32⟩
  | 114 => ⟨S278528x32, .f32⟩
  | 115 => ⟨S278528x1, .f32⟩
  | 116 => ⟨S278528x32, .f32⟩
  | 117 => ⟨S278528x32, .f32⟩
  | 118 => ⟨S_, .f32⟩
  | 119 => ⟨S16384x32, .f32⟩
  | 120 => ⟨S278528x1, .i32⟩
  | 121 => ⟨S16384x32, .f32⟩
  | 122 => ⟨S1x32, .f32⟩
  | 123 => ⟨S16384x32, .f32⟩
  | 124 => ⟨S16384x32, .f32⟩
  | 125 => ⟨S32x16384, .f32⟩
  | 126 => ⟨S16384x16384, .f32⟩
  | 127 => ⟨S16384x16384, .f32⟩
  | _ => ⟨S16384x128, .f32⟩

abbrev hbmTy0_1 (i : Nat) : BufTy := match i % 128 with
  | 0 => ⟨S16384x16384, .f32⟩
  | 1 => ⟨S_, .f32⟩
  | 2 => ⟨S16384x16384, .f32⟩
  | 3 => ⟨S16384x16384, .f32⟩
  | 4 => ⟨S_, .f32⟩
  | 5 => ⟨S16384x16384, .f32⟩
  | 6 => ⟨S16384x16384, .f32⟩
  | _ => ⟨S16384x128, .f32⟩

abbrev hbmTy (i : Nat) : BufTy := match i / 128 with
  | 0 => hbmTy0_0 i
  | 1 => hbmTy0_1 i
  | _ => ⟨S16384x128, .f32⟩

abbrev bufTy : (tb : Table) → Fin (tcTables nBuf tb) → BufTy
  | .hbm, ⟨i, _⟩ => hbmTy i
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_cst_20 : Ref sig .tc := ⟨.hbm, 129, rfl⟩
abbrev main_v95 : Ref sig .tc := ⟨.hbm, 130, rfl⟩
abbrev main_v96 : Ref sig .tc := ⟨.hbm, 131, rfl⟩
abbrev main_cst_21 : Ref sig .tc := ⟨.hbm, 132, rfl⟩
abbrev main_v97 : Ref sig .tc := ⟨.hbm, 133, rfl⟩
abbrev main_v98 : Ref sig .tc := ⟨.hbm, 134, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  concatenates_S262144_S16384_S278528_d0 : Shape.Concatenates [S262144, S16384] S278528 0
  bcast_S_S278528 : S_.BroadcastsInDim S278528 (![] : Fin 0 → Fin S278528.rank)
  bcast_S_S16384 : S_.BroadcastsInDim S16384 (![] : Fin 0 → Fin S16384.rank)
  bcast_S278528_S278528x1_0 : S278528.BroadcastsInDim S278528x1 (![0] : Fin 1 → Fin S278528x1.rank)
  bcast_S278528x1_S278528x128_0_1 : S278528x1.BroadcastsInDim S278528x128 (![0, 1] : Fin 2 → Fin S278528x128.rank)
  bcast_S_S16384x128 : S_.BroadcastsInDim S16384x128 (![] : Fin 0 → Fin S16384x128.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S278528x1_S278528x32_0_1 : S278528x1.BroadcastsInDim S278528x32 (![0, 1] : Fin 2 → Fin S278528x32.rank)
  bcast_S_S16384x32 : S_.BroadcastsInDim S16384x32 (![] : Fin 0 → Fin S16384x32.rank)
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  transposes_S16384x32_S32x16384_1_0 : S16384x32.Transposes [1, 0] S32x16384
  bcast_S_S16384x16384 : S_.BroadcastsInDim S16384x16384 (![] : Fin 0 → Fin S16384x16384.rank)
  dot_S16384x128_S128x128_S16384x128_1_0_0_1_n_n_wf : DotDims.WF S16384x128 S128x128 S16384x128 [1] [0] [0] [1] [] []
  scatter_S16384_S278528x1_S278528_n_0_0_1_wf : ScatterDims.WF S16384 S278528x1 S278528 [] [0] [0] 1
  gather_S16384_S278528x1_S278528_n_0_n_n_0_1_1_wf : GatherDims.WF S16384 S278528x1 S278528 [] [0] [] [0] [] 1 ![1]
  gather_S16384x128_S278528x1_S278528x128_1_0_n_n_0_1_1128_wf : GatherDims.WF S16384x128 S278528x1 S278528x128 [1] [0] [] [0] [] 1 ![1, 128]
  scatter_S16384x128_S278528x1_S278528x128_1_0_0_1_wf : ScatterDims.WF S16384x128 S278528x1 S278528x128 [1] [0] [0] 1
  dot_S16384x128_S128x32_S16384x32_1_0_0_1_n_n_wf : DotDims.WF S16384x128 S128x32 S16384x32 [1] [0] [0] [1] [] []
  gather_S16384x32_S278528x1_S278528x32_1_0_n_n_0_1_132_wf : GatherDims.WF S16384x32 S278528x1 S278528x32 [1] [0] [] [0] [] 1 ![1, 32]
  scatter_S16384x32_S278528x1_S278528x32_1_0_0_1_wf : ScatterDims.WF S16384x32 S278528x1 S278528x32 [1] [0] [0] 1
  dot_S16384x32_S32x16384_S16384x16384_1_0_0_1_n_n_wf : DotDims.WF S16384x32 S32x16384 S16384x16384 [1] [0] [0] [1] [] []

variable [Facts₀]

def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def scatter_S16384_S278528x1_S278528_n_0_0_1 : ScatterDims S16384 S278528x1 S278528 where
  updateWindowDims := []
  insertedWindowDims := [0]
  scatterDimsToOperandDims := [0]
  indexVectorDim := 1
  wf := scatter_S16384_S278528x1_S278528_n_0_0_1_wf
def gather_S16384_S278528x1_S278528_n_0_n_n_0_1_1 : GatherDims S16384 S278528x1 S278528 where
  offsetDims := []
  collapsedSliceDims := [0]
  operandBatchingDims := []
  startIndicesBatchingDims := []
  startIndexMap := [0]
  indexVectorDim := 1
  sliceSizes := ![1]
  wf := gather_S16384_S278528x1_S278528_n_0_n_n_0_1_1_wf
def gather_S16384x128_S278528x1_S278528x128_1_0_n_n_0_1_1128 : GatherDims S16384x128 S278528x1 S278528x128 where
  offsetDims := [1]
  collapsedSliceDims := [0]
  operandBatchingDims := []
  startIndicesBatchingDims := []
  startIndexMap := [0]
  indexVectorDim := 1
  sliceSizes := ![1, 128]
  wf := gather_S16384x128_S278528x1_S278528x128_1_0_n_n_0_1_1128_wf
def scatter_S16384x128_S278528x1_S278528x128_1_0_0_1 : ScatterDims S16384x128 S278528x1 S278528x128 where
  updateWindowDims := [1]
  insertedWindowDims := [0]
  scatterDimsToOperandDims := [0]
  indexVectorDim := 1
  wf := scatter_S16384x128_S278528x1_S278528x128_1_0_0_1_wf
def dot_S16384x128_S128x32_S16384x32_1_0_0_1_n_n : DotDims S16384x128 S128x32 S16384x32 where
  lhsContracting := [1]
  rhsContracting := [0]
  lhsNonContracting := [0]
  rhsNonContracting := [1]
  lhsBatch := []
  rhsBatch := []
  wf := dot_S16384x128_S128x32_S16384x32_1_0_0_1_n_n_wf
def gather_S16384x32_S278528x1_S278528x32_1_0_n_n_0_1_132 : GatherDims S16384x32 S278528x1 S278528x32 where
  offsetDims := [1]
  collapsedSliceDims := [0]
  operandBatchingDims := []
  startIndicesBatchingDims := []
  startIndexMap := [0]
  indexVectorDim := 1
  sliceSizes := ![1, 32]
  wf := gather_S16384x32_S278528x1_S278528x32_1_0_n_n_0_1_132_wf
def scatter_S16384x32_S278528x1_S278528x32_1_0_0_1 : ScatterDims S16384x32 S278528x1 S278528x32 where
  updateWindowDims := [1]
  insertedWindowDims := [0]
  scatterDimsToOperandDims := [0]
  indexVectorDim := 1
  wf := scatter_S16384x32_S278528x1_S278528x32_1_0_0_1_wf
def dot_S16384x32_S32x16384_S16384x16384_1_0_0_1_n_n : DotDims S16384x32 S32x16384 S16384x16384 where
  lhsContracting := [1]
  rhsContracting := [0]
  lhsNonContracting := [0]
  rhsNonContracting := [1]
  lhsBatch := []
  rhsBatch := []
  wf := dot_S16384x32_S32x16384_S16384x16384_1_0_0_1_n_n_wf

class Facts : Prop extends Facts₀ where

variable [Facts]
-- ==== Proof.LibSharedLaunch.lean ====
/-
  A frame run for a kernel region whose input windows may be handed ONE array several times, in a program that ends
  with the region.

  When two input windows read one array, the launch cannot hold that array once per window at the full share: the
  buffer behind it is split among the windows that read it, each window holding its own share, and the shares are
  joined again when the region is left.  The statement below asks the caller for exactly that fact — how the buffers
  behind the arrays, whole at the region's entry, make the windows' holdings (`hsplit`) — and concludes what the frame
  run of a kernel with distinct arrays concludes: every window's array ends at the contents the write-backs leave,
  every other unscoped buffer at what it held when the region was entered.  The region's invariant is the scoped
  buffers no window stages, at some contents: the body may use them as scratch and says nothing of them between points.
-/
import Idealize.ShloMosaic.Lib.Pipeline.Frame
import Idealize.ShloMosaic.Lib.Pipeline.Kit

noncomputable section

namespace SharedLaunch

open Idealize.ShloMosaic Idealize.ShloMosaic.Pipeline
open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.Rounds
open TcCoe

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

/-- The frame run of a program that ends with a region whose windows may share arrays.  `hsplit` deals the buffers
    behind the arrays to the windows at the region's entry; the invariant is entered from, and gives back, the scoped
    buffers that are no staging buffer. -/
theorem θ_run_frame_shared
    (hcell : Function.Injective (cellOf (nD := nD) (τ := τ) cfgs))
    (hw : WinFacts₀ (cfg).spec)
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfg).spec c (V c) : sProp 𝕄) ⊢ (dats p c).arrays ((dats p c).arrAt · 0))
    (hin : ∀ c, (scopedRest (cfg).spec c : sProp 𝕄) ⊢ (dats p c).Φ 0)
    (hout : ∀ c, (dats p c).Φ (Fin.last (cfg).N) ⊢ (scopedRest (cfg).spec c : sProp 𝕄)) :
    θ_run 𝔻 (onTc main) (s₀ m g) (FramePost cfgs dats p V) := by
  classical
  exact θ_run_region_noSem_shared cfgs dats () hcell p hw emb₁ defs₀ 𝒱₀ m g main hbody hne harr hstage howed
    (initOf (cells cfgs hcell) (launchToks cfgs hcell)) .rfl V hmain hsplit
    (X := fun _ => iprop(emp)) (Y := fun _ => iprop(emp))
    (Z := fun c => unscopedRest (cfg).spec c (V c))
    (fun c => by
      iintro H
      isplitr; · iempintro
      iexact H)
    (fun c => (show _ ⊢ (scopedRest (cfg).spec c : sProp 𝕄) from by iintro ⟨-, HR⟩; iexact HR).trans (hin c))
    (fun c => (hout c).trans (by
      iintro HR
      isplitr; · iempintro
      iexact HR))
    (QY := fun c s => ∀ b ∈ restRefs sig (cfg).spec, s.mem ((c.tc : Thread nD τ).loc b) = V c b)
    (fun c s' => by
      iintro ⟨-, HU, HSI⟩
      unfold unscopedRest
      imodintro
      iapply (pointsTo_read_all (restRefs sig (cfg).spec) (fun b => (c.tc : Thread nD τ).loc b) (V c) s')
      isplitl [HU] <;> iassumption)
    (fun s h c => ⟨(h c).1, (h c).2⟩)

end SharedLaunch

end
-- ==== Proof.HostK.lean ====
/-
  The launch of the decoder region and what it leaves.

  @main is seven stretches of host operations, which compute the node embeddings `z`, followed by one region on an
  8 × 8 grid.  At grid point `(i, j)` the region reads rows `2048 i … 2048 i + 2047` of `z` through its first window
  and rows `2048 j … 2048 j + 2047` of the SAME array through its second, and writes the 2048 × 2048 block `(i, j)` of
  the result through its third.  Since both input windows read one array, the buffer behind `z` is split between
  them, each holding one half of the full share, and joined again when the region is left; the result's array is
  held whole.  The body loads the two row blocks, forms the logistic function of their product of rows, and stores
  it over the whole staging block; it keeps nothing between points.  The run concludes: every weakly fair execution
  terminates, the result array ends at the write-backs of the 64 points, and every other unscoped buffer — the
  arguments among them, which no host operation writes — ends as the region found it.
-/
import proofs.«101118_j51513837748919_1_alg».proof.Proof.Gen.Kernel.Launch
import proofs.«101118_j51513837748919_1_alg».proof.Proof.Gen.Kernel.Skeleton
import proofs.«101118_j51513837748919_1_alg».proof.Proof.Gen.Kernel.Points
import proofs.«101118_j51513837748919_1_alg».proof.Proof.LibSharedLaunch
import Idealize.ShloMosaic.Lib.Pipeline.FrameBody
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the seven stretches of host operations. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Cert.Kernel.Region

end
-- ==== Proof.BodyK.lean ====
/-
  The decoder region's body at one grid point.

  The body loads the whole 2048 × 32 block of each input window, forms from the two blocks the 2048 × 2048 array whose
  entry `(p, q)` is the logistic function of the inner product of row `p` of the first block and row `q` of the
  second, and stores it over the whole staging block of the result window.  It also loads the result's buffer before the
  store, and uses nothing of what it read.  So on whole staging buffers, the inputs' at given contents and the result's
  at any, it runs to the end holding the inputs' as they were and the result's at the one store's value.
-/
import proofs.«101118_j51513837748919_1_alg».proof.Proof.Gen.Kernel.Launch
import proofs.«101118_j51513837748919_1_alg».proof.Proof.Gen.Kernel.Skeleton
import proofs.«101118_j51513837748919_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev r0_0 : Rect S2048x32 := Rect.unit (s := S2048x32) ![0, 0] S2048x32.size inb_S2048x32_S2048x32_0_0
abbrev r0_2 : Rect S2048x2048 := Rect.unit (s := S2048x2048) ![0, 0] S2048x2048.size inb_S2048x2048_S2048x2048_0_0

/-- The result window's staging buffer after the body, from the two row blocks: its one store, over the whole block. -/
def out0_2 (x0 x1 : Vec F S2048x32 .f32) : Vec F S2048x2048 .f32 :=
  View.canon [⟨r0_2, k0_pay1 (View.ld x0 r0_0) (View.ld x1 r0_0)⟩]

/-- The one store covers the buffer. -/
theorem cover0_2 (p0 : Vec F S2048x2048 .f32) (y : S2048x2048.Idx) :
    ∃ pc ∈ ([⟨r0_2, p0⟩] : List (View.Piece (Elt F) S2048x2048 .f32)), y ∈ pc.1.set :=
  View.cover_of_tiled [⟨r0_2, p0⟩] S2048x2048.size (by rfl) y

set_option maxHeartbeats 1000000 in
/-- The body on whole staging memrefs, the inputs' at contents `x0`, `x1` and the result's at anything, runs to the
    continuation holding the inputs' as they were and the result's at `out0_2 x0 x1`. -/
theorem sound_kernel (c : Dev nD) (E : Set ℕ) (i : grid0.Coords)
    (arg2 : Memref sig .tc .vmem S2048x32 .f32) (harg2 : arg2.IsWhole) (arg3 : Memref sig .tc .vmem S2048x32 .f32) (harg3 : arg3.IsWhole)
    (arg4 : Memref sig .tc .vmem S2048x2048 .f32) (harg4 : arg4.IsWhole)
    (x0 x1 : Vec F S2048x32 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out0_2 x0 x1)) -∗ K ⟨⟩))
      ⊢ wp frame (wpE (defs₀ (F := F)) Variants.none c none) E (cc0__adj_kernel i arg2 harg2 arg3 harg3 arg4 harg4) K := by
  simp only [cc0__adj_kernel_eq_skeleton]; unfold cc0__adj_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

end Cert.Kernel.Region

end
-- ==== Proof.RunK.lean ====
/-
  The decoder region's run.

  The proof data of the region on one core: the arrays as the region finds them; after the body at a point each
  input's staging buffer at its row block and the result's at the body's one store over the two row blocks; the
  invariant the scoped buffers that are no staging buffer (there are none), the same at every point; the two input
  windows, which read the one array of node embeddings, hold its left and its right half share, the result window its
  array whole; nothing is owed.  From these: the buffers behind the arrays, whole at the region's entry, make the
  windows' holdings by splitting the embeddings' buffer along the share; the body obligation holds at every point by the
  body's run; and the launch concludes that every weakly fair execution terminates with the result array at the
  write-backs of the 64 points and every other unscoped buffer as the region found it — so the six argument arrays,
  which no host operation writes and no window stages, end as launched.
-/
import proofs.«101118_j51513837748919_1_alg».proof.Proof.HostK
import proofs.«101118_j51513837748919_1_alg».proof.Proof.BodyK

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first input window's current staging buffer holds its row block at every point, fetched there or not: between
    two fetches the block index does not move, and the body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the second input window. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The proof data of the region on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.scopedRest spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The arrays dealt to the windows -/

/-- The first input window's holding: the embeddings' buffer, whole, at the left half share. -/
theorem arr0_eq (c : Dev nD) :
    (((cfg0.win 0).arr.view.loc (c.tc : Thread nD τ)) ↦[(cfg0.win 0).arr.view.set]{(dats m 0 c).share 0} (dats m 0 c).arrAt 0 0 : sProp 𝕄)
      = (((c.tc : Thread nD τ).loc main_v90) ↦{fullShare.left} V m c main_v90) := by
  rw [(arr_whole0 0).set_eq_univ]; rfl

/-- The second input window's holding: the same buffer at the right half share. -/
theorem arr1_eq (c : Dev nD) :
    (((cfg0.win 1).arr.view.loc (c.tc : Thread nD τ)) ↦[(cfg0.win 1).arr.view.set]{(dats m 0 c).share 1} (dats m 0 c).arrAt 1 0 : sProp 𝕄)
      = (((c.tc : Thread nD τ).loc main_v90) ↦{fullShare.right} V m c main_v90) := by
  rw [(arr_whole0 1).set_eq_univ]; rfl

/-- The result window's holding: the result's buffer whole. -/
theorem arr2_eq (c : Dev nD) :
    (((cfg0.win 2).arr.view.loc (c.tc : Thread nD τ)) ↦[(cfg0.win 2).arr.view.set]{(dats m 0 c).share 2} (dats m 0 c).arrAt 2 0 : sProp 𝕄)
      = (((c.tc : Thread nD τ).loc main_v91) ↦{fullShare} V m c main_v91) := by
  rw [(arr_whole0 2).set_eq_univ]; rfl

/-- The windows' holdings, one by one. -/
theorem arrays_eq (c : Dev nD) :
    (dats m 0 c).arrays ((dats m 0 c).arrAt · 0)
      = (iprop((((c.tc : Thread nD τ).loc main_v90) ↦{fullShare.left} V m c main_v90)
          ∗ (((c.tc : Thread nD τ).loc main_v90) ↦{fullShare.right} V m c main_v90)
          ∗ (((c.tc : Thread nD τ).loc main_v91) ↦{fullShare} V m c main_v91)) : sProp 𝕄) := by
  unfold Dat.arrays
  rw [bigSep_W0]
  exact congrArg₂ _ (arr0_eq m c) (congrArg₂ _ (arr1_eq m c) (arr2_eq m c))

/-- The buffers behind the arrays, one by one. -/
theorem arrBufs_eq (c : Dev nD) :
    (Pipeline.arrBufs spec0 c (V m c) : sProp 𝕄)
      = iprop((((c.tc : Thread nD τ).loc main_v90) ↦{fullShare} V m c main_v90) ∗ (((c.tc : Thread nD τ).loc main_v91) ↦{fullShare} V m c main_v91)) := by
  unfold Pipeline.arrBufs
  exact Idealize.SL.BI.bigSep_eq_bigSepL_of_eq [main_v90, main_v91] (by decide) (by decide) _

/-- The embeddings' buffer, whole at the full share, is its left and its right half share. -/
theorem split_z (c : Dev nD) :
    ((((c.tc : Thread nD τ).loc main_v90) ↦{fullShare} V m c main_v90) : sProp 𝕄)
      ⊢ iprop((((c.tc : Thread nD τ).loc main_v90) ↦{fullShare.left} V m c main_v90) ∗ (((c.tc : Thread nD τ).loc main_v90) ↦{fullShare.right} V m c main_v90)) :=
  (pointsTo_share (PosShare.mem_left_op_right fullShare)).1

/-- The buffers behind the arrays — the embeddings' and the result's —, whole at the region's entry, make the windows'
    holdings: the embeddings' buffer split along the share between the two windows that read it. -/
theorem hsplit (c : Dev nD) :
    (Pipeline.arrBufs spec0 c (V m c) : sProp 𝕄) ⊢ (dats m 0 c).arrays ((dats m 0 c).arrAt · 0) := by
  rw [arrBufs_eq, arrays_eq]
  exact (Idealize.SL.BI.sep_mono_l (split_z m c)).trans Idealize.SL.BI.sep_assoc

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' staging buffers hold their row blocks, so the body's run applies; the invariant
    and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; the result array ends at the write-backs of the 64 points, the
    embeddings' array as the region found it, and every other unscoped buffer as the region found it. -/
theorem run_main : θ_run defs (onTc (τ := τ) (main (F := F))) (s₀ m ρ) (Pipeline.FramePost cfgs (dats m) 0 (V m)) :=
  SharedLaunch.θ_run_frame_shared cfgs (dats m) (0 : Fin 1) defs₀ Variants.none cellOf_inj winFacts₀0 block_pos0 arr_whole0 stage_whole0 m ρ main
    (fun c => (body_obligation m c).loose) (fun _ _ => rfl) (V m) (hmain m Variants.none) (hsplit m)
    (fun _ => .rfl) (fun _ => .rfl)

/-- The run with its post read at the two results and the six arguments. -/
theorem run_results : θ_run defs (onTc (τ := τ) (main (F := F))) ⟨m, fun _ => 0, ρ⟩ (fun r => ∀ c : Dev nD,
      r.2.mem ((c.tc : Thread nD τ).loc main_v91) = (dats m 0 c).arrAt 2 cfg0.N
      ∧ r.2.mem ((c.tc : Thread nD τ).loc main_v90) = V m c main_v90
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1 2,
      ((h c).1 0).trans (((dats m 0 c).arrAt_in 0 rfl _).trans (A_eq m c 0)),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) (run_main m ρ)

/-- The frame: the program runs to the end and its six argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2.2) (run_results m ρ)

end Cert.Kernel.Region

end
-- ==== Proof.HostKI.lean ====
/-
  The launch of the decoder region and what it leaves.

  @main is seven stretches of host operations, which compute the node embeddings `z`, followed by one region on an
  8 × 8 grid.  At grid point `(i, j)` the region reads rows `2048 i … 2048 i + 2047` of `z` through its first window
  and rows `2048 j … 2048 j + 2047` of the SAME array through its second, and writes the 2048 × 2048 block `(i, j)` of
  the result through its third.  Since both input windows read one array, the buffer behind `z` is split between
  them, each holding one half of the full share, and joined again when the region is left; the result's array is
  held whole.  The body loads the two row blocks, forms the logistic function of their product of rows, and stores
  it over the whole staging block; it keeps nothing between points.  The run concludes: every weakly fair execution
  terminates, the result array ends at the write-backs of the 64 points, and every other unscoped buffer — the
  arguments among them, which no host operation writes — ends as the region found it.
-/
import proofs.«101118_j51513837748919_1_alg».proof.Proof.Gen.KernelIdeal.Launch
import proofs.«101118_j51513837748919_1_alg».proof.Proof.Gen.KernelIdeal.Skeleton
import proofs.«101118_j51513837748919_1_alg».proof.Proof.Gen.KernelIdeal.Points
import proofs.«101118_j51513837748919_1_alg».proof.Proof.LibSharedLaunch
import Idealize.ShloMosaic.Lib.Pipeline.FrameBody
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the seven stretches of host operations. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Cert.KernelIdeal.Region

end
-- ==== Proof.BodyKI.lean ====
/-
  The decoder region's body at one grid point.

  The body loads the whole 2048 × 32 block of each input window, forms from the two blocks the 2048 × 2048 array whose
  entry `(p, q)` is the logistic function of the inner product of row `p` of the first block and row `q` of the
  second, and stores it over the whole staging block of the result window.  It also loads the result's buffer before the
  store, and uses nothing of what it read.  So on whole staging buffers, the inputs' at given contents and the result's
  at any, it runs to the end holding the inputs' as they were and the result's at the one store's value.
-/
import proofs.«101118_j51513837748919_1_alg».proof.Proof.Gen.KernelIdeal.Launch
import proofs.«101118_j51513837748919_1_alg».proof.Proof.Gen.KernelIdeal.Skeleton
import proofs.«101118_j51513837748919_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev r0_0 : Rect S2048x32 := Rect.unit (s := S2048x32) ![0, 0] S2048x32.size inb_S2048x32_S2048x32_0_0
abbrev r0_2 : Rect S2048x2048 := Rect.unit (s := S2048x2048) ![0, 0] S2048x2048.size inb_S2048x2048_S2048x2048_0_0

/-- The result window's staging buffer after the body, from the two row blocks: its one store, over the whole block. -/
def out0_2 (x0 x1 : Vec F S2048x32 .f32) : Vec F S2048x2048 .f32 :=
  View.canon [⟨r0_2, k0_pay1 (View.ld x0 r0_0) (View.ld x1 r0_0)⟩]

/-- The one store covers the buffer. -/
theorem cover0_2 (p0 : Vec F S2048x2048 .f32) (y : S2048x2048.Idx) :
    ∃ pc ∈ ([⟨r0_2, p0⟩] : List (View.Piece (Elt F) S2048x2048 .f32)), y ∈ pc.1.set :=
  View.cover_of_tiled [⟨r0_2, p0⟩] S2048x2048.size (by rfl) y

set_option maxHeartbeats 1000000 in
/-- The body on whole staging memrefs, the inputs' at contents `x0`, `x1` and the result's at anything, runs to the
    continuation holding the inputs' as they were and the result's at `out0_2 x0 x1`. -/
theorem sound_kernel (c : Dev nD) (E : Set ℕ) (i : grid0.Coords)
    (arg2 : Memref sig .tc .vmem S2048x32 .f32) (harg2 : arg2.IsWhole) (arg3 : Memref sig .tc .vmem S2048x32 .f32) (harg3 : arg3.IsWhole)
    (arg4 : Memref sig .tc .vmem S2048x2048 .f32) (harg4 : arg4.IsWhole)
    (x0 x1 : Vec F S2048x32 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out0_2 x0 x1)) -∗ K ⟨⟩))
      ⊢ wp frame (wpE (defs₀ (F := F)) Variants.none c none) E (cc0__adj_kernel i arg2 harg2 arg3 harg3 arg4 harg4) K := by
  simp only [cc0__adj_kernel_eq_skeleton]; unfold cc0__adj_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

end Cert.KernelIdeal.Region

end
-- ==== Proof.RunKI.lean ====
/-
  The decoder region's run.

  The proof data of the region on one core: the arrays as the region finds them; after the body at a point each
  input's staging buffer at its row block and the result's at the body's one store over the two row blocks; the
  invariant the scoped buffers that are no staging buffer (there are none), the same at every point; the two input
  windows, which read the one array of node embeddings, hold its left and its right half share, the result window its
  array whole; nothing is owed.  From these: the buffers behind the arrays, whole at the region's entry, make the
  windows' holdings by splitting the embeddings' buffer along the share; the body obligation holds at every point by the
  body's run; and the launch concludes that every weakly fair execution terminates with the result array at the
  write-backs of the 64 points and every other unscoped buffer as the region found it — so the six argument arrays,
  which no host operation writes and no window stages, end as launched.
-/
import proofs.«101118_j51513837748919_1_alg».proof.Proof.HostKI
import proofs.«101118_j51513837748919_1_alg».proof.Proof.BodyKI

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first input window's current staging buffer holds its row block at every point, fetched there or not: between
    two fetches the block index does not move, and the body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the second input window. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The proof data of the region on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.scopedRest spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The arrays dealt to the windows -/

/-- The first input window's holding: the embeddings' buffer, whole, at the left half share. -/
theorem arr0_eq (c : Dev nD) :
    (((cfg0.win 0).arr.view.loc (c.tc : Thread nD τ)) ↦[(cfg0.win 0).arr.view.set]{(dats m 0 c).share 0} (dats m 0 c).arrAt 0 0 : sProp 𝕄)
      = (((c.tc : Thread nD τ).loc main_v90) ↦{fullShare.left} V m c main_v90) := by
  rw [(arr_whole0 0).set_eq_univ]; rfl

/-- The second input window's holding: the same buffer at the right half share. -/
theorem arr1_eq (c : Dev nD) :
    (((cfg0.win 1).arr.view.loc (c.tc : Thread nD τ)) ↦[(cfg0.win 1).arr.view.set]{(dats m 0 c).share 1} (dats m 0 c).arrAt 1 0 : sProp 𝕄)
      = (((c.tc : Thread nD τ).loc main_v90) ↦{fullShare.right} V m c main_v90) := by
  rw [(arr_whole0 1).set_eq_univ]; rfl

/-- The result window's holding: the result's buffer whole. -/
theorem arr2_eq (c : Dev nD) :
    (((cfg0.win 2).arr.view.loc (c.tc : Thread nD τ)) ↦[(cfg0.win 2).arr.view.set]{(dats m 0 c).share 2} (dats m 0 c).arrAt 2 0 : sProp 𝕄)
      = (((c.tc : Thread nD τ).loc main_v91) ↦{fullShare} V m c main_v91) := by
  rw [(arr_whole0 2).set_eq_univ]; rfl

/-- The windows' holdings, one by one. -/
theorem arrays_eq (c : Dev nD) :
    (dats m 0 c).arrays ((dats m 0 c).arrAt · 0)
      = (iprop((((c.tc : Thread nD τ).loc main_v90) ↦{fullShare.left} V m c main_v90)
          ∗ (((c.tc : Thread nD τ).loc main_v90) ↦{fullShare.right} V m c main_v90)
          ∗ (((c.tc : Thread nD τ).loc main_v91) ↦{fullShare} V m c main_v91)) : sProp 𝕄) := by
  unfold Dat.arrays
  rw [bigSep_W0]
  exact congrArg₂ _ (arr0_eq m c) (congrArg₂ _ (arr1_eq m c) (arr2_eq m c))

/-- The buffers behind the arrays, one by one. -/
theorem arrBufs_eq (c : Dev nD) :
    (Pipeline.arrBufs spec0 c (V m c) : sProp 𝕄)
      = iprop((((c.tc : Thread nD τ).loc main_v90) ↦{fullShare} V m c main_v90) ∗ (((c.tc : Thread nD τ).loc main_v91) ↦{fullShare} V m c main_v91)) := by
  unfold Pipeline.arrBufs
  exact Idealize.SL.BI.bigSep_eq_bigSepL_of_eq [main_v90, main_v91] (by decide) (by decide) _

/-- The embeddings' buffer, whole at the full share, is its left and its right half share. -/
theorem split_z (c : Dev nD) :
    ((((c.tc : Thread nD τ).loc main_v90) ↦{fullShare} V m c main_v90) : sProp 𝕄)
      ⊢ iprop((((c.tc : Thread nD τ).loc main_v90) ↦{fullShare.left} V m c main_v90) ∗ (((c.tc : Thread nD τ).loc main_v90) ↦{fullShare.right} V m c main_v90)) :=
  (pointsTo_share (PosShare.mem_left_op_right fullShare)).1

/-- The buffers behind the arrays — the embeddings' and the result's —, whole at the region's entry, make the windows'
    holdings: the embeddings' buffer split along the share between the two windows that read it. -/
theorem hsplit (c : Dev nD) :
    (Pipeline.arrBufs spec0 c (V m c) : sProp 𝕄) ⊢ (dats m 0 c).arrays ((dats m 0 c).arrAt · 0) := by
  rw [arrBufs_eq, arrays_eq]
  exact (Idealize.SL.BI.sep_mono_l (split_z m c)).trans Idealize.SL.BI.sep_assoc

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' staging buffers hold their row blocks, so the body's run applies; the invariant
    and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; the result array ends at the write-backs of the 64 points, the
    embeddings' array as the region found it, and every other unscoped buffer as the region found it. -/
theorem run_main : θ_run defs (onTc (τ := τ) (main (F := F))) (s₀ m ρ) (Pipeline.FramePost cfgs (dats m) 0 (V m)) :=
  SharedLaunch.θ_run_frame_shared cfgs (dats m) (0 : Fin 1) defs₀ Variants.none cellOf_inj winFacts₀0 block_pos0 arr_whole0 stage_whole0 m ρ main
    (fun c => (body_obligation m c).loose) (fun _ _ => rfl) (V m) (hmain m Variants.none) (hsplit m)
    (fun _ => .rfl) (fun _ => .rfl)

/-- The run with its post read at the two results and the six arguments. -/
theorem run_results : θ_run defs (onTc (τ := τ) (main (F := F))) ⟨m, fun _ => 0, ρ⟩ (fun r => ∀ c : Dev nD,
      r.2.mem ((c.tc : Thread nD τ).loc main_v91) = (dats m 0 c).arrAt 2 cfg0.N
      ∧ r.2.mem ((c.tc : Thread nD τ).loc main_v90) = V m c main_v90
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1 2,
      ((h c).1 0).trans (((dats m 0 c).arrAt_in 0 rfl _).trans (A_eq m c 0)),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) (run_main m ρ)

/-- The frame: the program runs to the end and its six argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2.2) (run_results m ρ)

end Cert.KernelIdeal.Region

end
-- ==== Proof.Spec.lean ====
/-
  The link decoder as one function of the node embeddings.

  `z` is the 16384 × 32 array of node embeddings.  The predicted adjacency at `(a, b)` is the logistic function of
  the inner product of rows `a` and `b` of `z`, a sum of 32 products of extended reals.  Both programs compute
  exactly this array from the same `z`; the sum is the only arithmetic, so no law beyond reading each operation at
  an index is needed, and nothing here asks the entries to be finite.
-/
import Idealize.ShloMosaic.PureOps.Ideal
import Idealize.ShloMosaic.Lib.ValueIdx

noncomputable section

open scoped BigOperators

namespace Cert.AdjSpec

open Idealize.ShloMosaic Idealize.ShloMosaic.ValueIdx

/-- The inner product of rows `a` and `b` of the embeddings: the sum over the 32 features of `z[a,k] · z[b,k]`. -/
def rowDot (z : FVec Ideal ⟨2, ![16384, 32]⟩ .f32) (a b : Fin 16384) : EReal :=
  ∑ k : Fin 32, z (ix2 a k) * z (ix2 b k)

/-- The predicted adjacency: at `(a, b)` the logistic function `1 / (1 + e^(-s))` of `s = rowDot z a b`. -/
def adj (z : FVec Ideal ⟨2, ![16384, 32]⟩ .f32) : FVec Ideal ⟨2, ![16384, 16384]⟩ .f32 :=
  fun i => Ideal.logistic (rowDot z (i 0) (i 1))

theorem adj_apply (z : FVec Ideal ⟨2, ![16384, 32]⟩ .f32) (a b : Fin 16384) :
    adj z (ix2 a b) = Ideal.logistic (rowDot z a b) := rfl

end Cert.AdjSpec

end
-- ==== Proof.PayloadKI.lean ====
/-
  The kernel body's one stored value, read at an index.

  The body loads a block `x0` of 2048 rows of the embeddings and a second block `x1` of 2048 rows, narrows both to
  bf16 (on extended reals a change of format is the identity), transposes the second, multiplies the first by that
  transpose into a zero accumulator, and applies the logistic function.  At `(p, q)` the product is the sum over the
  32 features `k` of `x0[p,k] · x1ᵀ[k,q]` with `x1ᵀ[k,q] = x1[q,k]`: the inner product of row `p` of the first block
  and row `q` of the second.
-/
import proofs.«101118_j51513837748919_1_alg».proof.Proof.Spec
import proofs.«101118_j51513837748919_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.PayloadKI

open Cert.KernelIdeal Cert.KernelIdeal.Gen Idealize.ShloMosaic Idealize.ShloMosaic.ValueIdx

/-- The block product into a zero accumulator at `(p, q)`: the left operand is read at `(p, k)` and the right at
    `(k, q)`, since the only contracted axes are the left operand's second and the right operand's first. -/
theorem matmul_at (l : FVec Ideal S2048x32 .bf16) (r : FVec Ideal S32x2048 .bf16) (p q : Fin 2048) :
    matmul dot_S2048x32_S32x2048_S2048x2048_1_0_0_1_n_n none l r
        (constant (F := Ideal) S2048x2048 .f32 0x00000000#32) (ix2 p q)
      = ∑ k : Fin 32, l (ix2 p k) * r (ix2 k q) := by
  show FloatOps.matmul dot_S2048x32_S32x2048_S2048x2048_1_0_0_1_n_n none l r
      (constant (F := Ideal) S2048x2048 .f32 0x00000000#32) (ix2 p q) = _
  rw [Ideal.matmul_constant_zero_apply,
    ← Equiv.sum_comp (contrEquiv1 dot_S2048x32_S32x2048_S2048x2048_1_0_0_1_n_n 32 rfl rfl).symm]
  refine Finset.sum_congr rfl fun k _ => ?_
  have hk := contrEquiv1_symm_val dot_S2048x32_S32x2048_S2048x2048_1_0_0_1_n_n 32 rfl rfl k
  have el : dot_S2048x32_S32x2048_S2048x2048_1_0_0_1_n_n.lhsIdx (ix2 p q)
      ((contrEquiv1 dot_S2048x32_S32x2048_S2048x2048_1_0_0_1_n_n 32 rfl rfl).symm k) = ix2 p k :=
    funext fun d => Fin.ext (by
      match d with
      | ⟨0, _⟩ => rfl
      | ⟨1, _⟩ =>
        exact (dot_S2048x32_S32x2048_S2048x2048_1_0_0_1_n_n.lhsIdx_val_of_single rfl (ix2 p q) _).trans hk)
  have er : dot_S2048x32_S32x2048_S2048x2048_1_0_0_1_n_n.rhsIdx (ix2 p q)
      ((contrEquiv1 dot_S2048x32_S32x2048_S2048x2048_1_0_0_1_n_n 32 rfl rfl).symm k) = ix2 k q :=
    funext fun d => Fin.ext (by
      match d with
      | ⟨0, _⟩ =>
        exact (dot_S2048x32_S32x2048_S2048x2048_1_0_0_1_n_n.rhsIdx_val_of_single rfl (ix2 p q) _).trans hk
      | ⟨1, _⟩ => rfl)
  rw [el, er]

/-- The transposed block at `(k, q)` is the block at `(q, k)`. -/
theorem transpose_at (x : FVec Ideal S2048x32 .bf16) (k : Fin 32) (q : Fin 2048) :
    transpose S32x2048 [1, 0] x transposes_S2048x32_p1_0_S32x2048 (ix2 k q) = x (ix2 q k) :=
  transpose_apply [1, 0] x transposes_S2048x32_p1_0_S32x2048 (ix2 k q) (ix2 q k)
    (fun d => match d with | ⟨0, _⟩ => rfl | ⟨1, _⟩ => rfl)

/-- The stored value at `(p, q)`: the logistic function of the inner product of row `p` of the first block and row
    `q` of the second. -/
theorem pay_apply (x0 x1 : Vec Ideal S2048x32 .f32) (p q : Fin 2048) :
    k0_pay1 (F := Ideal) x0 x1 (ix2 p q) = Ideal.logistic (∑ k : Fin 32, x0 (ix2 p k) * x1 (ix2 q k)) := by
  unfold k0_pay1
  simp only [shapeCast_self]
  show Ideal.logistic (matmul dot_S2048x32_S32x2048_S2048x2048_1_0_0_1_n_n none
      (truncf .bf16 x0 bitsLt_bf16_f32 : FVec Ideal S2048x32 .bf16)
      (transpose S32x2048 [1, 0] (truncf .bf16 x1 bitsLt_bf16_f32 : FVec Ideal S2048x32 .bf16)
        transposes_S2048x32_p1_0_S32x2048)
      (constant (F := Ideal) S2048x2048 .f32 0x00000000#32) (ix2 p q)) = _
  rw [matmul_at]
  refine congrArg Ideal.logistic (Finset.sum_congr rfl fun k _ => ?_)
  rw [transpose_at]
  rfl

end Cert.PayloadKI

end
-- ==== Proof.ValueKI.lean ====
/-
  What the decoder region leaves in the result array, as one function of the node embeddings.

  At grid point `t = (i, j)` the first input window's block is rows `2048 i + p` of the embeddings `z`, the second's
  rows `2048 j + q`, and the result window's block is entries `(2048 i + p, 2048 j + q)` of the result.  The body's
  one store at block index `(p, q)` is the logistic function of `∑ₖ z[2048 i + p, k] · z[2048 j + q, k]`, which is the
  decoder `adj z` at `(2048 i + p, 2048 j + q)`: what point `t` writes back is block `t` of `adj z`.  The 64 blocks tile
  the 16384 × 16384 array — entry `(a, b)` lies in the block of the point with `i = a / 2048`, `j = b / 2048` — so the
  array ends holding `adj z`.
-/
import proofs.«101118_j51513837748919_1_alg».proof.Proof.RunKI
import proofs.«101118_j51513837748919_1_alg».proof.Proof.PayloadKI
import proofs.«101118_j51513837748919_1_alg».proof.Proof.Spec
import Idealize.ShloMosaic.Lib.Pipeline.Value
import Idealize.ShloMosaic.Lib.ValueIdx

set_option maxRecDepth 16384

noncomputable section

open scoped BigOperators

namespace Cert.KernelIdeal.Region

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

theorem zero_off : (![0, 0] : Fin 2 → Nat) = fun _ => 0 := funext fun a => by fin_cases a <;> rfl

/-- The index maps over the grid: the first input window's row block is the result's row block, the second's is the
    result's column block, both at feature block 0, and the result's block indices are below 8. -/
theorem index_facts : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 7 ∧ win0_2.index t (1 : Fin 2) ≤ 7 :=
  (by decide +kernel : ∀ t : Fin grid0.N, _)

/-- Every block of the result is some point's. -/
theorem index_onto : ∀ (q0 : Fin 8) (q1 : Fin 8), ∃ t : Fin cfg0.N, win0_2.index t = ![q0.val, q1.val] :=
  (by decide +kernel : ∀ (q0 : Fin 8) (q1 : Fin 8), ∃ t : Fin grid0.N, win0_2.index t = ![q0.val, q1.val])

/-- An input window's block at a point, read at a block index, is the embeddings at the block's embedded index. -/
theorem iblk0_apply (c : Dev nD) (t : Fin cfg0.N) (j : S2048x32.Idx) :
    iblk m c 0 t j = V m c main_v90 (((cfg0.win 0).blk t).view.emb j) := rfl
theorem iblk1_apply (c : Dev nD) (t : Fin cfg0.N) (j : S2048x32.Idx) :
    iblk m c 1 t j = V m c main_v90 (((cfg0.win 1).blk t).view.emb j) := rfl
/-- A block of an array of the result's shape, read at a block index, is the array at the embedded index. -/
theorem read2_apply (c : Dev nD) (t : Fin cfg0.N) (z : Buf (Elt Ideal) ((c.tc : Thread nD τ).loc main_v91)) (j : S2048x2048.Idx) :
    ((cfg0.win 2).blk t).view.read (Elt Ideal) z j = z (((cfg0.win 2).blk t).view.emb j) := rfl
/-- The result window's blocks are never cut: what is written back is the whole staging block. -/
theorem cut2_id (t : Fin cfg0.N) (x : Vec Ideal S2048x2048 .f32) : (cfg0.win 2).cut (grid0.coords t) x = x := rfl

set_option maxHeartbeats 4000000 in
/-- What point `t` writes back is block `t` of the decoder of the embeddings as the region finds them. -/
theorem flushed_eq (c : Dev nD) (t : Fin cfg0.N) :
    (dats m 0 c).flushed 2 t = ((cfg0.win 2).blk t).view.read (Elt Ideal) (Cert.AdjSpec.adj (V m c main_v90)) := by
  show (cfg0.win 2).cut (grid0.coords t) ((dats m 0 c).after 2 t) = _
  rw [after0_2]
  unfold out0_2
  rw [View.canon_unit_zero zero_off]
  simp only [View.ld_unit_zero (S := S2048x32) zero_off]
  refine (cut2_id t _).trans ?_
  obtain ⟨e0, e1, e2, e3, e4, e5⟩ := index_facts t
  funext j
  obtain ⟨p, q, rfl⟩ : ∃ (p : Fin 2048) (q : Fin 2048), j = ix2 p q := ⟨j 0, j 1, eq_ix2 (n0 := 2048) (n1 := 2048) j⟩
  refine (Cert.PayloadKI.pay_apply (iblk m c 0 t) (iblk m c 1 t) p q).trans ?_
  refine Eq.trans ?_ (read2_apply c t (Cert.AdjSpec.adj (V m c main_v90)) (ix2 p q)).symm
  have hp : p.val < 2048 := p.isLt
  have hq : q.val < 2048 := q.isLt
  have hA : ∀ k : Fin 32, ((cfg0.win 0).blk t).view.emb (ix2 p k)
      = ix2 (⟨win0_2.index t (0 : Fin 2) * 2048 + p.val, by omega⟩ : Fin 16384) k := fun k => by
    funext a; apply Fin.ext
    match a with
    | ⟨0, _⟩ => show win0_0.index t (0 : Fin 2) * 2048 + 1 * p.val = win0_2.index t (0 : Fin 2) * 2048 + p.val; omega
    | ⟨1, _⟩ => show win0_0.index t (1 : Fin 2) * 32 + 1 * k.val = k.val; omega
  have hB : ∀ k : Fin 32, ((cfg0.win 1).blk t).view.emb (ix2 q k)
      = ix2 (⟨win0_2.index t (1 : Fin 2) * 2048 + q.val, by omega⟩ : Fin 16384) k := fun k => by
    funext a; apply Fin.ext
    match a with
    | ⟨0, _⟩ => show win0_1.index t (0 : Fin 2) * 2048 + 1 * q.val = win0_2.index t (1 : Fin 2) * 2048 + q.val; omega
    | ⟨1, _⟩ => show win0_1.index t (1 : Fin 2) * 32 + 1 * k.val = k.val; omega
  have hC : ((cfg0.win 2).blk t).view.emb (ix2 p q)
      = ix2 (⟨win0_2.index t (0 : Fin 2) * 2048 + p.val, by omega⟩ : Fin 16384) (⟨win0_2.index t (1 : Fin 2) * 2048 + q.val, by omega⟩ : Fin 16384) := by
    funext a; apply Fin.ext
    match a with
    | ⟨0, _⟩ => show win0_2.index t (0 : Fin 2) * 2048 + 1 * p.val = win0_2.index t (0 : Fin 2) * 2048 + p.val; omega
    | ⟨1, _⟩ => show win0_2.index t (1 : Fin 2) * 2048 + 1 * q.val = win0_2.index t (1 : Fin 2) * 2048 + q.val; omega
  rw [hC, Cert.AdjSpec.adj_apply]
  unfold Cert.AdjSpec.rowDot
  exact congrArg Ideal.logistic (Finset.sum_congr rfl fun k _ => by rw [iblk0_apply, iblk1_apply, hA k, hB k])

/-- An index of the result is in point `t`'s block iff each coordinate is in the block's range on its axis. -/
theorem mem_blk (t : Fin cfg0.N) (i : S16384x16384.Idx) :
    i ∈ ((cfg0.win 2).blk t).view.set ↔ ∀ a : Fin 2, win0_2.index t a * S2048x2048.size a ≤ (i a).val ∧ (i a).val < win0_2.index t a * S2048x2048.size a + S2048x2048.size a := by
  show i ∈ ((View.whole main_v91).slice (win0_2.rect t)).set ↔ _
  rw [View.set_slice_whole, Rect.mem_set_unit]
  exact Iff.rfl

/-- Every entry of the result lies in the block of some point: the point whose block indices are the quotients of the
    entry's coordinates by 2048. -/
theorem covered (i : S16384x16384.Idx) :
    ∃ t : Fin cfg0.N, (cfg0.win 2).flush t = true ∧ i ∈ ((cfg0.win 2).blk t).view.set := by
  have hi0 : (i 0).val < 16384 := (i 0).isLt
  have hi1 : (i 1).val < 16384 := (i 1).isLt
  obtain ⟨t, ht⟩ := index_onto ⟨(i 0).val / 2048, by omega⟩ ⟨(i 1).val / 2048, by omega⟩
  have q0 : win0_2.index t (0 : Fin 2) = (i 0).val / 2048 := congrFun ht 0
  have q1 : win0_2.index t (1 : Fin 2) = (i 1).val / 2048 := congrFun ht 1
  refine ⟨t, flush0_2 t, ?_⟩
  rw [mem_blk]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 2048 ≤ (i 1).val ∧ (i 1).val < win0_2.index t (1 : Fin 2) * 2048 + 2048; omega

/-- The result array after the run is the decoder of the embeddings as the region finds them. -/
theorem final (c : Dev nD) : (dats m 0 c).arrAt 2 cfg0.N = Cert.AdjSpec.adj (V m c main_v90) :=
  (dats m 0 c).arrAt_eq_of_cover 2 (Cert.AdjSpec.adj (V m c main_v90)) (fun t _ => flushed_eq m c t) covered

/-- The run at the ideal instance, its results named: the adjacency prediction is the decoder of the embeddings, the
    embeddings are what the host operations leave, and the arguments end unchanged. -/
theorem run_value : θ_run defs (onTc (τ := τ) (main (F := Ideal))) ⟨m, fun _ => 0, ρ⟩ (fun r => ∀ c : Dev nD,
      r.2.mem ((c.tc : Thread nD τ).loc main_v91) = Cert.AdjSpec.adj (V m c main_v90)
      ∧ r.2.mem ((c.tc : Thread nD τ).loc main_v90) = V m c main_v90
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (final m c), (h c).2⟩) (run_results m ρ)

end Cert.KernelIdeal.Region

end
-- ==== Proof.RefRun.lean ====
/-
  The reference program's run, read back.

  The reference is a straight line of 129 host operations.  Its first 119 operations compute the node embeddings
  `z` (two graph-convolution layers: products with the weight matrices, the degree normalisation gathered along the
  edges, the scatter-add over destinations, the biases); its last ten are the link decoder on `z` alone: the
  transpose, the product `z · zᵀ`, and `1 / (1 + exp (-s))` entry by entry.  Every weakly fair execution terminates
  with each buffer at the fold of the operations' results over the launch contents; cutting the fold after the 119th
  operation gives the two results as `z` (no later operation writes it) and the decoder applied to `z`, and the
  argument arrays are written by no operation.
-/
import proofs.«101118_j51513837748919_1_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The operations that compute the node embeddings, in order (a called function's operations stand in its call's
    place). -/
abbrev opsPrefix : List (HloOp τ sig (Elt F)) :=
  [ unary main_arg1 main_v0 ((extractStridedSlice S1x262144 ![0, 0] · slices_S2x262144_S1x262144_0_0) : (⟨S2x262144, .i32⟩ : BufTy).Contents (Elt F) → (⟨S1x262144, .i32⟩ : BufTy).Contents (Elt F)),
    reshape main_v0 main_v1 rfl shapeCasts_S1x262144_S262144,
    unary main_arg1 main_v2 ((extractStridedSlice S1x262144 ![1, 0] · slices_S2x262144_S1x262144_1_0) : (⟨S2x262144, .i32⟩ : BufTy).Contents (Elt F) → (⟨S1x262144, .i32⟩ : BufTy).Contents (Elt F)),
    reshape main_v2 main_v3 rfl shapeCasts_S1x262144_S262144,
    binary main_arg0 main_arg2 main_v4 ((fun l r => Host.dotGeneral dot_S16384x128_S128x128_S16384x128_1_0_0_1_n_n none l r) : (⟨S16384x128, .f32⟩ : BufTy).Contents (Elt F) → (⟨S128x128, .f32⟩ : BufTy).Contents (Elt F) → (⟨S16384x128, .f32⟩ : BufTy).Contents (Elt F)),
    nullary main_v5 (iotaInDim S16384 32 0),
    binary main_v1 main_v5 main_v6 ((fun a b => concatenate S278528 0 [⟨S262144, a⟩, ⟨S16384, b⟩] concatenates_S262144_S16384_S278528_d0) : (⟨S262144, .i32⟩ : BufTy).Contents (Elt F) → (⟨S16384, .i32⟩ : BufTy).Contents (Elt F) → (⟨S278528, .i32⟩ : BufTy).Contents (Elt F)),
    binary main_v3 main_v5 main_v7 ((fun a b => concatenate S278528 0 [⟨S262144, a⟩, ⟨S16384, b⟩] concatenates_S262144_S16384_S278528_d0) : (⟨S262144, .i32⟩ : BufTy).Contents (Elt F) → (⟨S16384, .i32⟩ : BufTy).Contents (Elt F) → (⟨S278528, .i32⟩ : BufTy).Contents (Elt F)),
    nullary main_cst (constant S_ .f32 0x3F800000#32),
    unary main_cst main_v8 (broadcastInDim S278528 ![] bcast_S_S278528 : (⟨S_, .f32⟩ : BufTy).Contents (Elt F) → (⟨S278528, .f32⟩ : BufTy).Contents (Elt F)),
    nullary main_cst_0 (constant S_ .f32 0x00000000#32),
    unary main_cst_0 main_v9 (broadcastInDim S16384 ![] bcast_S_S16384 : (⟨S_, .f32⟩ : BufTy).Contents (Elt F) → (⟨S16384, .f32⟩ : BufTy).Contents (Elt F)),
    unary main_v7 main_v10 (broadcastInDim S278528x1 ![0] bcast_S278528_S278528x1_0 : (⟨S278528, .i32⟩ : BufTy).Contents (Elt F) → (⟨S278528x1, .i32⟩ : BufTy).Contents (Elt F)),
    ternary main_v9 main_v10 main_v8 main_v11 ((fun x i u => Host.scatterAdd scatter_S16384_S278528x1_S278528_n_0_0_1 x i u) : (⟨S16384, .f32⟩ : BufTy).Contents (Elt F) → (⟨S278528x1, .i32⟩ : BufTy).Contents (Elt F) → (⟨S278528, .f32⟩ : BufTy).Contents (Elt F) → (⟨S16384, .f32⟩ : BufTy).Contents (Elt F)),
    nullary main_cst_1 (constant S_ .f32 0x00000000#32),
    unary main_cst_1 main_v12 (broadcastInDim S16384 ![] bcast_S_S16384 : (⟨S_, .f32⟩ : BufTy).Contents (Elt F) → (⟨S16384, .f32⟩ : BufTy).Contents (Elt F)),
    binary main_v11 main_v12 main_v13 (cmpf .ogt : (⟨S16384, .f32⟩ : BufTy).Contents (Elt F) → (⟨S16384, .f32⟩ : BufTy).Contents (Elt F) → (⟨S16384, .i1⟩ : BufTy).Contents (Elt F)),
    unary main_v11 main_v14 (Host.rsqrt : (⟨S16384, .f32⟩ : BufTy).Contents (Elt F) → (⟨S16384, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S16384, .f32⟩) main_call0_v1) (broadcastInDim S16384 ![] bcast_S_S16384),
    TRef.ternary (TRef.of (T := ⟨S16384, .i1⟩) main_v13) (TRef.of (T := ⟨S16384, .f32⟩) main_v14) (TRef.of (T := ⟨S16384, .f32⟩) main_call0_v1) (TRef.of (T := ⟨S16384, .f32⟩) main_v15) select,
    nullary main_c (constantI S_ 32 0#32),
    unary main_c main_v16 (broadcastInDim S278528 ![] bcast_S_S278528 : (⟨S_, .i32⟩ : BufTy).Contents (Elt F) → (⟨S278528, .i32⟩ : BufTy).Contents (Elt F)),
    binary main_v6 main_v16 main_v17 (cmpi .slt : (⟨S278528, .i32⟩ : BufTy).Contents (Elt F) → (⟨S278528, .i32⟩ : BufTy).Contents (Elt F) → (⟨S278528, .i1⟩ : BufTy).Contents (Elt F)),
    nullary main_c_3 (constantI S_ 32 16384#32),
    unary main_c_3 main_v18 (broadcastInDim S278528 ![] bcast_S_S278528 : (⟨S_, .i32⟩ : BufTy).Contents (Elt F) → (⟨S278528, .i32⟩ : BufTy).Contents (Elt F)),
    binary main_v6 main_v18 main_v19 (addi : (⟨S278528, .i32⟩ : BufTy).Contents (Elt F) → (⟨S278528, .i32⟩ : BufTy).Contents (Elt F) → (⟨S278528, .i32⟩ : BufTy).Contents (Elt F)),
    ternary main_v17 main_v19 main_v6 main_v20 (select : (⟨S278528, .i1⟩ : BufTy).Contents (Elt F) → (⟨S278528, .i32⟩ : BufTy).Contents (Elt F) → (⟨S278528, .i32⟩ : BufTy).Contents (Elt F) → (⟨S278528, .i32⟩ : BufTy).Contents (Elt F)),
    unary main_v20 main_v21 (broadcastInDim S278528x1 ![0] bcast_S278528_S278528x1_0 : (⟨S278528, .i32⟩ : BufTy).Contents (Elt F) → (⟨S278528x1, .i32⟩ : BufTy).Contents (Elt F)),
    binary main_v15 main_v21 main_v22 ((fun x i => Host.gather gather_S16384_S278528x1_S278528_n_0_n_n_0_1_1 x i) : (⟨S16384, .f32⟩ : BufTy).Contents (Elt F) → (⟨S278528x1, .i32⟩ : BufTy).Contents (Elt F) → (⟨S278528, .f32⟩ : BufTy).Contents (Elt F)),
    nullary main_c_4 (constantI S_ 32 0#32),
    unary main_c_4 main_v23 (broadcastInDim S278528 ![] bcast_S_S278528 : (⟨S_, .i32⟩ : BufTy).Contents (Elt F) → (⟨S278528, .i32⟩ : BufTy).Contents (Elt F)),
    binary main_v7 main_v23 main_v24 (cmpi .slt : (⟨S278528, .i32⟩ : BufTy).Contents (Elt F) → (⟨S278528, .i32⟩ : BufTy).Contents (Elt F) → (⟨S278528, .i1⟩ : BufTy).Contents (Elt F)),
    nullary main_c_5 (constantI S_ 32 16384#32),
    unary main_c_5 main_v25 (broadcastInDim S278528 ![] bcast_S_S278528 : (⟨S_, .i32⟩ : BufTy).Contents (Elt F) → (⟨S278528, .i32⟩ : BufTy).Contents (Elt F)),
    binary main_v7 main_v25 main_v26 (addi : (⟨S278528, .i32⟩ : BufTy).Contents (Elt F) → (⟨S278528, .i32⟩ : BufTy).Contents (Elt F) → (⟨S278528, .i32⟩ : BufTy).Contents (Elt F)),
    ternary main_v24 main_v26 main_v7 main_v27 (select : (⟨S278528, .i1⟩ : BufTy).Contents (Elt F) → (⟨S278528, .i32⟩ : BufTy).Contents (Elt F) → (⟨S278528, .i32⟩ : BufTy).Contents (Elt F) → (⟨S278528, .i32⟩ : BufTy).Contents (Elt F)),
    unary main_v27 main_v28 (broadcastInDim S278528x1 ![0] bcast_S278528_S278528x1_0 : (⟨S278528, .i32⟩ : BufTy).Contents (Elt F) → (⟨S278528x1, .i32⟩ : BufTy).Contents (Elt F)),
    binary main_v15 main_v28 main_v29 ((fun x i => Host.gather gather_S16384_S278528x1_S278528_n_0_n_n_0_1_1 x i) : (⟨S16384, .f32⟩ : BufTy).Contents (Elt F) → (⟨S278528x1, .i32⟩ : BufTy).Contents (Elt F) → (⟨S278528, .f32⟩ : BufTy).Contents (Elt F)),
    binary main_v22 main_v29 main_v30 (mulf : (⟨S278528, .f32⟩ : BufTy).Contents (Elt F) → (⟨S278528, .f32⟩ : BufTy).Contents (Elt F) → (⟨S278528, .f32⟩ : BufTy).Contents (Elt F)),
    nullary main_c_6 (constantI S_ 32 0#32),
    unary main_c_6 main_v31 (broadcastInDim S278528 ![] bcast_S_S278528 : (⟨S_, .i32⟩ : BufTy).Contents (Elt F) → (⟨S278528, .i32⟩ : BufTy).Contents (Elt F)),
    binary main_v6 main_v31 main_v32 (cmpi .slt : (⟨S278528, .i32⟩ : BufTy).Contents (Elt F) → (⟨S278528, .i32⟩ : BufTy).Contents (Elt F) → (⟨S278528, .i1⟩ : BufTy).Contents (Elt F)),
    nullary main_c_7 (constantI S_ 32 16384#32),
    unary main_c_7 main_v33 (broadcastInDim S278528 ![] bcast_S_S278528 : (⟨S_, .i32⟩ : BufTy).Contents (Elt F) → (⟨S278528, .i32⟩ : BufTy).Contents (Elt F)),
    binary main_v6 main_v33 main_v34 (addi : (⟨S278528, .i32⟩ : BufTy).Contents (Elt F) → (⟨S278528, .i32⟩ : BufTy).Contents (Elt F) → (⟨S278528, .i32⟩ : BufTy).Contents (Elt F)),
    ternary main_v32 main_v34 main_v6 main_v35 (select : (⟨S278528, .i1⟩ : BufTy).Contents (Elt F) → (⟨S278528, .i32⟩ : BufTy).Contents (Elt F) → (⟨S278528, .i32⟩ : BufTy).Contents (Elt F) → (⟨S278528, .i32⟩ : BufTy).Contents (Elt F)),
    unary main_v35 main_v36 (broadcastInDim S278528x1 ![0] bcast_S278528_S278528x1_0 : (⟨S278528, .i32⟩ : BufTy).Contents (Elt F) → (⟨S278528x1, .i32⟩ : BufTy).Contents (Elt F)),
    binary main_v4 main_v36 main_v37 ((fun x i => Host.gather gather_S16384x128_S278528x1_S278528x128_1_0_n_n_0_1_1128 x i) : (⟨S16384x128, .f32⟩ : BufTy).Contents (Elt F) → (⟨S278528x1, .i32⟩ : BufTy).Contents (Elt F) → (⟨S278528x128, .f32⟩ : BufTy).Contents (Elt F)),
    unary main_v30 main_v38 (broadcastInDim S278528x1 ![0] bcast_S278528_S278528x1_0 : (⟨S278528, .f32⟩ : BufTy).Contents (Elt F) → (⟨S278528x1, .f32⟩ : BufTy).Contents (Elt F)),
    unary main_v38 main_v39 (broadcastInDim S278528x128 ![0, 1] bcast_S278528x1_S278528x128_0_1 : (⟨S278528x1, .f32⟩ : BufTy).Contents (Elt F) → (⟨S278528x128, .f32⟩ : BufTy).Contents (Elt F)),
    binary main_v37 main_v39 main_v40 (mulf : (⟨S278528x128, .f32⟩ : BufTy).Contents (Elt F) → (⟨S278528x128, .f32⟩ : BufTy).Contents (Elt F) → (⟨S278528x128, .f32⟩ : BufTy).Contents (Elt F)),
    nullary main_cst_8 (constant S_ .f32 0x00000000#32),
    unary main_cst_8 main_v41 (broadcastInDim S16384x128 ![] bcast_S_S16384x128 : (⟨S_, .f32⟩ : BufTy).Contents (Elt F) → (⟨S16384x128, .f32⟩ : BufTy).Contents (Elt F)),
    unary main_v7 main_v42 (broadcastInDim S278528x1 ![0] bcast_S278528_S278528x1_0 : (⟨S278528, .i32⟩ : BufTy).Contents (Elt F) → (⟨S278528x1, .i32⟩ : BufTy).Contents (Elt F)),
    ternary main_v41 main_v42 main_v40 main_v43 ((fun x i u => Host.scatterAdd scatter_S16384x128_S278528x1_S278528x128_1_0_0_1 x i u) : (⟨S16384x128, .f32⟩ : BufTy).Contents (Elt F) → (⟨S278528x1, .i32⟩ : BufTy).Contents (Elt F) → (⟨S278528x128, .f32⟩ : BufTy).Contents (Elt F) → (⟨S16384x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S16384x128 ![0, 1] bcast_S1x128_S16384x128_0_1 : (⟨S1x128, .f32⟩ : BufTy).Contents (Elt F) → (⟨S16384x128, .f32⟩ : BufTy).Contents (Elt F)),
    binary main_v43 main_v45 main_v46 (addf : (⟨S16384x128, .f32⟩ : BufTy).Contents (Elt F) → (⟨S16384x128, .f32⟩ : BufTy).Contents (Elt F) → (⟨S16384x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S16384x128, .f32⟩) main_call1_v0) (broadcastInDim S16384x128 ![] bcast_S_S16384x128),
    TRef.binary (TRef.of (T := ⟨S16384x128, .f32⟩) main_v46) (TRef.of (T := ⟨S16384x128, .f32⟩) main_call1_v0) (TRef.of (T := ⟨S16384x128, .f32⟩) main_v47) maximumf,
    binary main_v47 main_arg4 main_v48 ((fun l r => Host.dotGeneral dot_S16384x128_S128x32_S16384x32_1_0_0_1_n_n none l r) : (⟨S16384x128, .f32⟩ : BufTy).Contents (Elt F) → (⟨S128x32, .f32⟩ : BufTy).Contents (Elt F) → (⟨S16384x32, .f32⟩ : BufTy).Contents (Elt F)),
    nullary main_v49 (iotaInDim S16384 32 0),
    binary main_v1 main_v49 main_v50 ((fun a b => concatenate S278528 0 [⟨S262144, a⟩, ⟨S16384, b⟩] concatenates_S262144_S16384_S278528_d0) : (⟨S262144, .i32⟩ : BufTy).Contents (Elt F) → (⟨S16384, .i32⟩ : BufTy).Contents (Elt F) → (⟨S278528, .i32⟩ : BufTy).Contents (Elt F)),
    binary main_v3 main_v49 main_v51 ((fun a b => concatenate S278528 0 [⟨S262144, a⟩, ⟨S16384, b⟩] concatenates_S262144_S16384_S278528_d0) : (⟨S262144, .i32⟩ : BufTy).Contents (Elt F) → (⟨S16384, .i32⟩ : BufTy).Contents (Elt F) → (⟨S278528, .i32⟩ : BufTy).Contents (Elt F)),
    nullary main_cst_9 (constant S_ .f32 0x3F800000#32),
    unary main_cst_9 main_v52 (broadcastInDim S278528 ![] bcast_S_S278528 : (⟨S_, .f32⟩ : BufTy).Contents (Elt F) → (⟨S278528, .f32⟩ : BufTy).Contents (Elt F)),
    nullary main_cst_10 (constant S_ .f32 0x00000000#32),
    unary main_cst_10 main_v53 (broadcastInDim S16384 ![] bcast_S_S16384 : (⟨S_, .f32⟩ : BufTy).Contents (Elt F) → (⟨S16384, .f32⟩ : BufTy).Contents (Elt F)),
    unary main_v51 main_v54 (broadcastInDim S278528x1 ![0] bcast_S278528_S278528x1_0 : (⟨S278528, .i32⟩ : BufTy).Contents (Elt F) → (⟨S278528x1, .i32⟩ : BufTy).Contents (Elt F)),
    ternary main_v53 main_v54 main_v52 main_v55 ((fun x i u => Host.scatterAdd scatter_S16384_S278528x1_S278528_n_0_0_1 x i u) : (⟨S16384, .f32⟩ : BufTy).Contents (Elt F) → (⟨S278528x1, .i32⟩ : BufTy).Contents (Elt F) → (⟨S278528, .f32⟩ : BufTy).Contents (Elt F) → (⟨S16384, .f32⟩ : BufTy).Contents (Elt F)),
    nullary main_cst_11 (constant S_ .f32 0x00000000#32),
    unary main_cst_11 main_v56 (broadcastInDim S16384 ![] bcast_S_S16384 : (⟨S_, .f32⟩ : BufTy).Contents (Elt F) → (⟨S16384, .f32⟩ : BufTy).Contents (Elt F)),
    binary main_v55 main_v56 main_v57 (cmpf .ogt : (⟨S16384, .f32⟩ : BufTy).Contents (Elt F) → (⟨S16384, .f32⟩ : BufTy).Contents (Elt F) → (⟨S16384, .i1⟩ : BufTy).Contents (Elt F)),
    unary main_v55 main_v58 (Host.rsqrt : (⟨S16384, .f32⟩ : BufTy).Contents (Elt F) → (⟨S16384, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S16384, .f32⟩) main_call2_v1) (broadcastInDim S16384 ![] bcast_S_S16384),
    TRef.ternary (TRef.of (T := ⟨S16384, .i1⟩) main_v57) (TRef.of (T := ⟨S16384, .f32⟩) main_v58) (TRef.of (T := ⟨S16384, .f32⟩) main_call2_v1) (TRef.of (T := ⟨S16384, .f32⟩) main_v59) select,
    nullary main_c_13 (constantI S_ 32 0#32),
    unary main_c_13 main_v60 (broadcastInDim S278528 ![] bcast_S_S278528 : (⟨S_, .i32⟩ : BufTy).Contents (Elt F) → (⟨S278528, .i32⟩ : BufTy).Contents (Elt F)),
    binary main_v50 main_v60 main_v61 (cmpi .slt : (⟨S278528, .i32⟩ : BufTy).Contents (Elt F) → (⟨S278528, .i32⟩ : BufTy).Contents (Elt F) → (⟨S278528, .i1⟩ : BufTy).Contents (Elt F)),
    nullary main_c_14 (constantI S_ 32 16384#32),
    unary main_c_14 main_v62 (broadcastInDim S278528 ![] bcast_S_S278528 : (⟨S_, .i32⟩ : BufTy).Contents (Elt F) → (⟨S278528, .i32⟩ : BufTy).Contents (Elt F)),
    binary main_v50 main_v62 main_v63 (addi : (⟨S278528, .i32⟩ : BufTy).Contents (Elt F) → (⟨S278528, .i32⟩ : BufTy).Contents (Elt F) → (⟨S278528, .i32⟩ : BufTy).Contents (Elt F)),
    ternary main_v61 main_v63 main_v50 main_v64 (select : (⟨S278528, .i1⟩ : BufTy).Contents (Elt F) → (⟨S278528, .i32⟩ : BufTy).Contents (Elt F) → (⟨S278528, .i32⟩ : BufTy).Contents (Elt F) → (⟨S278528, .i32⟩ : BufTy).Contents (Elt F)),
    unary main_v64 main_v65 (broadcastInDim S278528x1 ![0] bcast_S278528_S278528x1_0 : (⟨S278528, .i32⟩ : BufTy).Contents (Elt F) → (⟨S278528x1, .i32⟩ : BufTy).Contents (Elt F)),
    binary main_v59 main_v65 main_v66 ((fun x i => Host.gather gather_S16384_S278528x1_S278528_n_0_n_n_0_1_1 x i) : (⟨S16384, .f32⟩ : BufTy).Contents (Elt F) → (⟨S278528x1, .i32⟩ : BufTy).Contents (Elt F) → (⟨S278528, .f32⟩ : BufTy).Contents (Elt F)),
    nullary main_c_15 (constantI S_ 32 0#32),
    unary main_c_15 main_v67 (broadcastInDim S278528 ![] bcast_S_S278528 : (⟨S_, .i32⟩ : BufTy).Contents (Elt F) → (⟨S278528, .i32⟩ : BufTy).Contents (Elt F)),
    binary main_v51 main_v67 main_v68 (cmpi .slt : (⟨S278528, .i32⟩ : BufTy).Contents (Elt F) → (⟨S278528, .i32⟩ : BufTy).Contents (Elt F) → (⟨S278528, .i1⟩ : BufTy).Contents (Elt F)),
    nullary main_c_16 (constantI S_ 32 16384#32),
    unary main_c_16 main_v69 (broadcastInDim S278528 ![] bcast_S_S278528 : (⟨S_, .i32⟩ : BufTy).Contents (Elt F) → (⟨S278528, .i32⟩ : BufTy).Contents (Elt F)),
    binary main_v51 main_v69 main_v70 (addi : (⟨S278528, .i32⟩ : BufTy).Contents (Elt F) → (⟨S278528, .i32⟩ : BufTy).Contents (Elt F) → (⟨S278528, .i32⟩ : BufTy).Contents (Elt F)),
    ternary main_v68 main_v70 main_v51 main_v71 (select : (⟨S278528, .i1⟩ : BufTy).Contents (Elt F) → (⟨S278528, .i32⟩ : BufTy).Contents (Elt F) → (⟨S278528, .i32⟩ : BufTy).Contents (Elt F) → (⟨S278528, .i32⟩ : BufTy).Contents (Elt F)),
    unary main_v71 main_v72 (broadcastInDim S278528x1 ![0] bcast_S278528_S278528x1_0 : (⟨S278528, .i32⟩ : BufTy).Contents (Elt F) → (⟨S278528x1, .i32⟩ : BufTy).Contents (Elt F)),
    binary main_v59 main_v72 main_v73 ((fun x i => Host.gather gather_S16384_S278528x1_S278528_n_0_n_n_0_1_1 x i) : (⟨S16384, .f32⟩ : BufTy).Contents (Elt F) → (⟨S278528x1, .i32⟩ : BufTy).Contents (Elt F) → (⟨S278528, .f32⟩ : BufTy).Contents (Elt F)),
    binary main_v66 main_v73 main_v74 (mulf : (⟨S278528, .f32⟩ : BufTy).Contents (Elt F) → (⟨S278528, .f32⟩ : BufTy).Contents (Elt F) → (⟨S278528, .f32⟩ : BufTy).Contents (Elt F)),
    nullary main_c_17 (constantI S_ 32 0#32),
    unary main_c_17 main_v75 (broadcastInDim S278528 ![] bcast_S_S278528 : (⟨S_, .i32⟩ : BufTy).Contents (Elt F) → (⟨S278528, .i32⟩ : BufTy).Contents (Elt F)),
    binary main_v50 main_v75 main_v76 (cmpi .slt : (⟨S278528, .i32⟩ : BufTy).Contents (Elt F) → (⟨S278528, .i32⟩ : BufTy).Contents (Elt F) → (⟨S278528, .i1⟩ : BufTy).Contents (Elt F)),
    nullary main_c_18 (constantI S_ 32 16384#32),
    unary main_c_18 main_v77 (broadcastInDim S278528 ![] bcast_S_S278528 : (⟨S_, .i32⟩ : BufTy).Contents (Elt F) → (⟨S278528, .i32⟩ : BufTy).Contents (Elt F)),
    binary main_v50 main_v77 main_v78 (addi : (⟨S278528, .i32⟩ : BufTy).Contents (Elt F) → (⟨S278528, .i32⟩ : BufTy).Contents (Elt F) → (⟨S278528, .i32⟩ : BufTy).Contents (Elt F)),
    ternary main_v76 main_v78 main_v50 main_v79 (select : (⟨S278528, .i1⟩ : BufTy).Contents (Elt F) → (⟨S278528, .i32⟩ : BufTy).Contents (Elt F) → (⟨S278528, .i32⟩ : BufTy).Contents (Elt F) → (⟨S278528, .i32⟩ : BufTy).Contents (Elt F)),
    unary main_v79 main_v80 (broadcastInDim S278528x1 ![0] bcast_S278528_S278528x1_0 : (⟨S278528, .i32⟩ : BufTy).Contents (Elt F) → (⟨S278528x1, .i32⟩ : BufTy).Contents (Elt F)),
    binary main_v48 main_v80 main_v81 ((fun x i => Host.gather gather_S16384x32_S278528x1_S278528x32_1_0_n_n_0_1_132 x i) : (⟨S16384x32, .f32⟩ : BufTy).Contents (Elt F) → (⟨S278528x1, .i32⟩ : BufTy).Contents (Elt F) → (⟨S278528x32, .f32⟩ : BufTy).Contents (Elt F)),
    unary main_v74 main_v82 (broadcastInDim S278528x1 ![0] bcast_S278528_S278528x1_0 : (⟨S278528, .f32⟩ : BufTy).Contents (Elt F) → (⟨S278528x1, .f32⟩ : BufTy).Contents (Elt F)),
    unary main_v82 main_v83 (broadcastInDim S278528x32 ![0, 1] bcast_S278528x1_S278528x32_0_1 : (⟨S278528x1, .f32⟩ : BufTy).Contents (Elt F) → (⟨S278528x32, .f32⟩ : BufTy).Contents (Elt F)),
    binary main_v81 main_v83 main_v84 (mulf : (⟨S278528x32, .f32⟩ : BufTy).Contents (Elt F) → (⟨S278528x32, .f32⟩ : BufTy).Contents (Elt F) → (⟨S278528x32, .f32⟩ : BufTy).Contents (Elt F)),
    nullary main_cst_19 (constant S_ .f32 0x00000000#32),
    unary main_cst_19 main_v85 (broadcastInDim S16384x32 ![] bcast_S_S16384x32 : (⟨S_, .f32⟩ : BufTy).Contents (Elt F) → (⟨S16384x32, .f32⟩ : BufTy).Contents (Elt F)),
    unary main_v51 main_v86 (broadcastInDim S278528x1 ![0] bcast_S278528_S278528x1_0 : (⟨S278528, .i32⟩ : BufTy).Contents (Elt F) → (⟨S278528x1, .i32⟩ : BufTy).Contents (Elt F)),
    ternary main_v85 main_v86 main_v84 main_v87 ((fun x i u => Host.scatterAdd scatter_S16384x32_S278528x1_S278528x32_1_0_0_1 x i u) : (⟨S16384x32, .f32⟩ : BufTy).Contents (Elt F) → (⟨S278528x1, .i32⟩ : BufTy).Contents (Elt F) → (⟨S278528x32, .f32⟩ : BufTy).Contents (Elt F) → (⟨S16384x32, .f32⟩ : BufTy).Contents (Elt F)),
    unary main_arg5 main_v88 (broadcastInDim S1x32 ![1] bcast_S32_S1x32_1 : (⟨S32, .f32⟩ : BufTy).Contents (Elt F) → (⟨S1x32, .f32⟩ : BufTy).Contents (Elt F)),
    unary main_v88 main_v89 (broadcastInDim S16384x32 ![0, 1] bcast_S1x32_S16384x32_0_1 : (⟨S1x32, .f32⟩ : BufTy).Contents (Elt F) → (⟨S16384x32, .f32⟩ : BufTy).Contents (Elt F)),
    binary main_v87 main_v89 main_v90 (addf : (⟨S16384x32, .f32⟩ : BufTy).Contents (Elt F) → (⟨S16384x32, .f32⟩ : BufTy).Contents (Elt F) → (⟨S16384x32, .f32⟩ : BufTy).Contents (Elt F)) ]

/-- The link decoder's operations, in order. -/
abbrev opsTail : List (HloOp τ sig (Elt F)) :=
  [ unary main_v90 main_v91 ((transpose S32x16384 [1, 0] · transposes_S16384x32_S32x16384_1_0) : (⟨S16384x32, .f32⟩ : BufTy).Contents (Elt F) → (⟨S32x16384, .f32⟩ : BufTy).Contents (Elt F)),
    binary main_v90 main_v91 main_v92 ((fun l r => Host.dotGeneral dot_S16384x32_S32x16384_S16384x16384_1_0_0_1_n_n none l r) : (⟨S16384x32, .f32⟩ : BufTy).Contents (Elt F) → (⟨S32x16384, .f32⟩ : BufTy).Contents (Elt F) → (⟨S16384x16384, .f32⟩ : BufTy).Contents (Elt F)),
    unary main_v92 main_v93 (Host.negf : (⟨S16384x16384, .f32⟩ : BufTy).Contents (Elt F) → (⟨S16384x16384, .f32⟩ : BufTy).Contents (Elt F)),
    unary main_v93 main_v94 (Host.exp : (⟨S16384x16384, .f32⟩ : BufTy).Contents (Elt F) → (⟨S16384x16384, .f32⟩ : BufTy).Contents (Elt F)),
    nullary main_cst_20 (constant S_ .f32 0x3F800000#32),
    unary main_cst_20 main_v95 (broadcastInDim S16384x16384 ![] bcast_S_S16384x16384 : (⟨S_, .f32⟩ : BufTy).Contents (Elt F) → (⟨S16384x16384, .f32⟩ : BufTy).Contents (Elt F)),
    binary main_v95 main_v94 main_v96 (addf : (⟨S16384x16384, .f32⟩ : BufTy).Contents (Elt F) → (⟨S16384x16384, .f32⟩ : BufTy).Contents (Elt F) → (⟨S16384x16384, .f32⟩ : BufTy).Contents (Elt F)),
    nullary main_cst_21 (constant S_ .f32 0x3F800000#32),
    unary main_cst_21 main_v97 (broadcastInDim S16384x16384 ![] bcast_S_S16384x16384 : (⟨S_, .f32⟩ : BufTy).Contents (Elt F) → (⟨S16384x16384, .f32⟩ : BufTy).Contents (Elt F)),
    binary main_v97 main_v96 main_v98 (Host.divf : (⟨S16384x16384, .f32⟩ : BufTy).Contents (Elt F) → (⟨S16384x16384, .f32⟩ : BufTy).Contents (Elt F) → (⟨S16384x16384, .f32⟩ : BufTy).Contents (Elt F)) ]

/-- All of @main's operations, in order. -/
abbrev ops : List (HloOp τ sig (Elt F)) :=
  [ unary main_arg1 main_v0 ((extractStridedSlice S1x262144 ![0, 0] · slices_S2x262144_S1x262144_0_0) : (⟨S2x262144, .i32⟩ : BufTy).Contents (Elt F) → (⟨S1x262144, .i32⟩ : BufTy).Contents (Elt F)),
    reshape main_v0 main_v1 rfl shapeCasts_S1x262144_S262144,
    unary main_arg1 main_v2 ((extractStridedSlice S1x262144 ![1, 0] · slices_S2x262144_S1x262144_1_0) : (⟨S2x262144, .i32⟩ : BufTy).Contents (Elt F) → (⟨S1x262144, .i32⟩ : BufTy).Contents (Elt F)),
    reshape main_v2 main_v3 rfl shapeCasts_S1x262144_S262144,
    binary main_arg0 main_arg2 main_v4 ((fun l r => Host.dotGeneral dot_S16384x128_S128x128_S16384x128_1_0_0_1_n_n none l r) : (⟨S16384x128, .f32⟩ : BufTy).Contents (Elt F) → (⟨S128x128, .f32⟩ : BufTy).Contents (Elt F) → (⟨S16384x128, .f32⟩ : BufTy).Contents (Elt F)),
    nullary main_v5 (iotaInDim S16384 32 0),
    binary main_v1 main_v5 main_v6 ((fun a b => concatenate S278528 0 [⟨S262144, a⟩, ⟨S16384, b⟩] concatenates_S262144_S16384_S278528_d0) : (⟨S262144, .i32⟩ : BufTy).Contents (Elt F) → (⟨S16384, .i32⟩ : BufTy).Contents (Elt F) → (⟨S278528, .i32⟩ : BufTy).Contents (Elt F)),
    binary main_v3 main_v5 main_v7 ((fun a b => concatenate S278528 0 [⟨S262144, a⟩, ⟨S16384, b⟩] concatenates_S262144_S16384_S278528_d0) : (⟨S262144, .i32⟩ : BufTy).Contents (Elt F) → (⟨S16384, .i32⟩ : BufTy).Contents (Elt F) → (⟨S278528, .i32⟩ : BufTy).Contents (Elt F)),
    nullary main_cst (constant S_ .f32 0x3F800000#32),
    unary main_cst main_v8 (broadcastInDim S278528 ![] bcast_S_S278528 : (⟨S_, .f32⟩ : BufTy).Contents (Elt F) → (⟨S278528, .f32⟩ : BufTy).Contents (Elt F)),
    nullary main_cst_0 (constant S_ .f32 0x00000000#32),
    unary main_cst_0 main_v9 (broadcastInDim S16384 ![] bcast_S_S16384 : (⟨S_, .f32⟩ : BufTy).Contents (Elt F) → (⟨S16384, .f32⟩ : BufTy).Contents (Elt F)),
    unary main_v7 main_v10 (broadcastInDim S278528x1 ![0] bcast_S278528_S278528x1_0 : (⟨S278528, .i32⟩ : BufTy).Contents (Elt F) → (⟨S278528x1, .i32⟩ : BufTy).Contents (Elt F)),
    ternary main_v9 main_v10 main_v8 main_v11 ((fun x i u => Host.scatterAdd scatter_S16384_S278528x1_S278528_n_0_0_1 x i u) : (⟨S16384, .f32⟩ : BufTy).Contents (Elt F) → (⟨S278528x1, .i32⟩ : BufTy).Contents (Elt F) → (⟨S278528, .f32⟩ : BufTy).Contents (Elt F) → (⟨S16384, .f32⟩ : BufTy).Contents (Elt F)),
    nullary main_cst_1 (constant S_ .f32 0x00000000#32),
    unary main_cst_1 main_v12 (broadcastInDim S16384 ![] bcast_S_S16384 : (⟨S_, .f32⟩ : BufTy).Contents (Elt F) → (⟨S16384, .f32⟩ : BufTy).Contents (Elt F)),
    binary main_v11 main_v12 main_v13 (cmpf .ogt : (⟨S16384, .f32⟩ : BufTy).Contents (Elt F) → (⟨S16384, .f32⟩ : BufTy).Contents (Elt F) → (⟨S16384, .i1⟩ : BufTy).Contents (Elt F)),
    unary main_v11 main_v14 (Host.rsqrt : (⟨S16384, .f32⟩ : BufTy).Contents (Elt F) → (⟨S16384, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S16384, .f32⟩) main_call0_v1) (broadcastInDim S16384 ![] bcast_S_S16384),
    TRef.ternary (TRef.of (T := ⟨S16384, .i1⟩) main_v13) (TRef.of (T := ⟨S16384, .f32⟩) main_v14) (TRef.of (T := ⟨S16384, .f32⟩) main_call0_v1) (TRef.of (T := ⟨S16384, .f32⟩) main_v15) select,
    nullary main_c (constantI S_ 32 0#32),
    unary main_c main_v16 (broadcastInDim S278528 ![] bcast_S_S278528 : (⟨S_, .i32⟩ : BufTy).Contents (Elt F) → (⟨S278528, .i32⟩ : BufTy).Contents (Elt F)),
    binary main_v6 main_v16 main_v17 (cmpi .slt : (⟨S278528, .i32⟩ : BufTy).Contents (Elt F) → (⟨S278528, .i32⟩ : BufTy).Contents (Elt F) → (⟨S278528, .i1⟩ : BufTy).Contents (Elt F)),
    nullary main_c_3 (constantI S_ 32 16384#32),
    unary main_c_3 main_v18 (broadcastInDim S278528 ![] bcast_S_S278528 : (⟨S_, .i32⟩ : BufTy).Contents (Elt F) → (⟨S278528, .i32⟩ : BufTy).Contents (Elt F)),
    binary main_v6 main_v18 main_v19 (addi : (⟨S278528, .i32⟩ : BufTy).Contents (Elt F) → (⟨S278528, .i32⟩ : BufTy).Contents (Elt F) → (⟨S278528, .i32⟩ : BufTy).Contents (Elt F)),
    ternary main_v17 main_v19 main_v6 main_v20 (select : (⟨S278528, .i1⟩ : BufTy).Contents (Elt F) → (⟨S278528, .i32⟩ : BufTy).Contents (Elt F) → (⟨S278528, .i32⟩ : BufTy).Contents (Elt F) → (⟨S278528, .i32⟩ : BufTy).Contents (Elt F)),
    unary main_v20 main_v21 (broadcastInDim S278528x1 ![0] bcast_S278528_S278528x1_0 : (⟨S278528, .i32⟩ : BufTy).Contents (Elt F) → (⟨S278528x1, .i32⟩ : BufTy).Contents (Elt F)),
    binary main_v15 main_v21 main_v22 ((fun x i => Host.gather gather_S16384_S278528x1_S278528_n_0_n_n_0_1_1 x i) : (⟨S16384, .f32⟩ : BufTy).Contents (Elt F) → (⟨S278528x1, .i32⟩ : BufTy).Contents (Elt F) → (⟨S278528, .f32⟩ : BufTy).Contents (Elt F)),
    nullary main_c_4 (constantI S_ 32 0#32),
    unary main_c_4 main_v23 (broadcastInDim S278528 ![] bcast_S_S278528 : (⟨S_, .i32⟩ : BufTy).Contents (Elt F) → (⟨S278528, .i32⟩ : BufTy).Contents (Elt F)),
    binary main_v7 main_v23 main_v24 (cmpi .slt : (⟨S278528, .i32⟩ : BufTy).Contents (Elt F) → (⟨S278528, .i32⟩ : BufTy).Contents (Elt F) → (⟨S278528, .i1⟩ : BufTy).Contents (Elt F)),
    nullary main_c_5 (constantI S_ 32 16384#32),
    unary main_c_5 main_v25 (broadcastInDim S278528 ![] bcast_S_S278528 : (⟨S_, .i32⟩ : BufTy).Contents (Elt F) → (⟨S278528, .i32⟩ : BufTy).Contents (Elt F)),
    binary main_v7 main_v25 main_v26 (addi : (⟨S278528, .i32⟩ : BufTy).Contents (Elt F) → (⟨S278528, .i32⟩ : BufTy).Contents (Elt F) → (⟨S278528, .i32⟩ : BufTy).Contents (Elt F)),
    ternary main_v24 main_v26 main_v7 main_v27 (select : (⟨S278528, .i1⟩ : BufTy).Contents (Elt F) → (⟨S278528, .i32⟩ : BufTy).Contents (Elt F) → (⟨S278528, .i32⟩ : BufTy).Contents (Elt F) → (⟨S278528, .i32⟩ : BufTy).Contents (Elt F)),
    unary main_v27 main_v28 (broadcastInDim S278528x1 ![0] bcast_S278528_S278528x1_0 : (⟨S278528, .i32⟩ : BufTy).Contents (Elt F) → (⟨S278528x1, .i32⟩ : BufTy).Contents (Elt F)),
    binary main_v15 main_v28 main_v29 ((fun x i => Host.gather gather_S16384_S278528x1_S278528_n_0_n_n_0_1_1 x i) : (⟨S16384, .f32⟩ : BufTy).Contents (Elt F) → (⟨S278528x1, .i32⟩ : BufTy).Contents (Elt F) → (⟨S278528, .f32⟩ : BufTy).Contents (Elt F)),
    binary main_v22 main_v29 main_v30 (mulf : (⟨S278528, .f32⟩ : BufTy).Contents (Elt F) → (⟨S278528, .f32⟩ : BufTy).Contents (Elt F) → (⟨S278528, .f32⟩ : BufTy).Contents (Elt F)),
    nullary main_c_6 (constantI S_ 32 0#32),
    unary main_c_6 main_v31 (broadcastInDim S278528 ![] bcast_S_S278528 : (⟨S_, .i32⟩ : BufTy).Contents (Elt F) → (⟨S278528, .i32⟩ : BufTy).Contents (Elt F)),
    binary main_v6 main_v31 main_v32 (cmpi .slt : (⟨S278528, .i32⟩ : BufTy).Contents (Elt F) → (⟨S278528, .i32⟩ : BufTy).Contents (Elt F) → (⟨S278528, .i1⟩ : BufTy).Contents (Elt F)),
    nullary main_c_7 (constantI S_ 32 16384#32),
    unary main_c_7 main_v33 (broadcastInDim S278528 ![] bcast_S_S278528 : (⟨S_, .i32⟩ : BufTy).Contents (Elt F) → (⟨S278528, .i32⟩ : BufTy).Contents (Elt F)),
    binary main_v6 main_v33 main_v34 (addi : (⟨S278528, .i32⟩ : BufTy).Contents (Elt F) → (⟨S278528, .i32⟩ : BufTy).Contents (Elt F) → (⟨S278528, .i32⟩ : BufTy).Contents (Elt F)),
    ternary main_v32 main_v34 main_v6 main_v35 (select : (⟨S278528, .i1⟩ : BufTy).Contents (Elt F) → (⟨S278528, .i32⟩ : BufTy).Contents (Elt F) → (⟨S278528, .i32⟩ : BufTy).Contents (Elt F) → (⟨S278528, .i32⟩ : BufTy).Contents (Elt F)),
    unary main_v35 main_v36 (broadcastInDim S278528x1 ![0] bcast_S278528_S278528x1_0 : (⟨S278528, .i32⟩ : BufTy).Contents (Elt F) → (⟨S278528x1, .i32⟩ : BufTy).Contents (Elt F)),
    binary main_v4 main_v36 main_v37 ((fun x i => Host.gather gather_S16384x128_S278528x1_S278528x128_1_0_n_n_0_1_1128 x i) : (⟨S16384x128, .f32⟩ : BufTy).Contents (Elt F) → (⟨S278528x1, .i32⟩ : BufTy).Contents (Elt F) → (⟨S278528x128, .f32⟩ : BufTy).Contents (Elt F)),
    unary main_v30 main_v38 (broadcastInDim S278528x1 ![0] bcast_S278528_S278528x1_0 : (⟨S278528, .f32⟩ : BufTy).Contents (Elt F) → (⟨S278528x1, .f32⟩ : BufTy).Contents (Elt F)),
    unary main_v38 main_v39 (broadcastInDim S278528x128 ![0, 1] bcast_S278528x1_S278528x128_0_1 : (⟨S278528x1, .f32⟩ : BufTy).Contents (Elt F) → (⟨S278528x128, .f32⟩ : BufTy).Contents (Elt F)),
    binary main_v37 main_v39 main_v40 (mulf : (⟨S278528x128, .f32⟩ : BufTy).Contents (Elt F) → (⟨S278528x128, .f32⟩ : BufTy).Contents (Elt F) → (⟨S278528x128, .f32⟩ : BufTy).Contents (Elt F)),
    nullary main_cst_8 (constant S_ .f32 0x00000000#32),
    unary main_cst_8 main_v41 (broadcastInDim S16384x128 ![] bcast_S_S16384x128 : (⟨S_, .f32⟩ : BufTy).Contents (Elt F) → (⟨S16384x128, .f32⟩ : BufTy).Contents (Elt F)),
    unary main_v7 main_v42 (broadcastInDim S278528x1 ![0] bcast_S278528_S278528x1_0 : (⟨S278528, .i32⟩ : BufTy).Contents (Elt F) → (⟨S278528x1, .i32⟩ : BufTy).Contents (Elt F)),
    ternary main_v41 main_v42 main_v40 main_v43 ((fun x i u => Host.scatterAdd scatter_S16384x128_S278528x1_S278528x128_1_0_0_1 x i u) : (⟨S16384x128, .f32⟩ : BufTy).Contents (Elt F) → (⟨S278528x1, .i32⟩ : BufTy).Contents (Elt F) → (⟨S278528x128, .f32⟩ : BufTy).Contents (Elt F) → (⟨S16384x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S16384x128 ![0, 1] bcast_S1x128_S16384x128_0_1 : (⟨S1x128, .f32⟩ : BufTy).Contents (Elt F) → (⟨S16384x128, .f32⟩ : BufTy).Contents (Elt F)),
    binary main_v43 main_v45 main_v46 (addf : (⟨S16384x128, .f32⟩ : BufTy).Contents (Elt F) → (⟨S16384x128, .f32⟩ : BufTy).Contents (Elt F) → (⟨S16384x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S16384x128, .f32⟩) main_call1_v0) (broadcastInDim S16384x128 ![] bcast_S_S16384x128),
    TRef.binary (TRef.of (T := ⟨S16384x128, .f32⟩) main_v46) (TRef.of (T := ⟨S16384x128, .f32⟩) main_call1_v0) (TRef.of (T := ⟨S16384x128, .f32⟩) main_v47) maximumf,
    binary main_v47 main_arg4 main_v48 ((fun l r => Host.dotGeneral dot_S16384x128_S128x32_S16384x32_1_0_0_1_n_n none l r) : (⟨S16384x128, .f32⟩ : BufTy).Contents (Elt F) → (⟨S128x32, .f32⟩ : BufTy).Contents (Elt F) → (⟨S16384x32, .f32⟩ : BufTy).Contents (Elt F)),
    nullary main_v49 (iotaInDim S16384 32 0),
    binary main_v1 main_v49 main_v50 ((fun a b => concatenate S278528 0 [⟨S262144, a⟩, ⟨S16384, b⟩] concatenates_S262144_S16384_S278528_d0) : (⟨S262144, .i32⟩ : BufTy).Contents (Elt F) → (⟨S16384, .i32⟩ : BufTy).Contents (Elt F) → (⟨S278528, .i32⟩ : BufTy).Contents (Elt F)),
    binary main_v3 main_v49 main_v51 ((fun a b => concatenate S278528 0 [⟨S262144, a⟩, ⟨S16384, b⟩] concatenates_S262144_S16384_S278528_d0) : (⟨S262144, .i32⟩ : BufTy).Contents (Elt F) → (⟨S16384, .i32⟩ : BufTy).Contents (Elt F) → (⟨S278528, .i32⟩ : BufTy).Contents (Elt F)),
    nullary main_cst_9 (constant S_ .f32 0x3F800000#32),
    unary main_cst_9 main_v52 (broadcastInDim S278528 ![] bcast_S_S278528 : (⟨S_, .f32⟩ : BufTy).Contents (Elt F) → (⟨S278528, .f32⟩ : BufTy).Contents (Elt F)),
    nullary main_cst_10 (constant S_ .f32 0x00000000#32),
    unary main_cst_10 main_v53 (broadcastInDim S16384 ![] bcast_S_S16384 : (⟨S_, .f32⟩ : BufTy).Contents (Elt F) → (⟨S16384, .f32⟩ : BufTy).Contents (Elt F)),
    unary main_v51 main_v54 (broadcastInDim S278528x1 ![0] bcast_S278528_S278528x1_0 : (⟨S278528, .i32⟩ : BufTy).Contents (Elt F) → (⟨S278528x1, .i32⟩ : BufTy).Contents (Elt F)),
    ternary main_v53 main_v54 main_v52 main_v55 ((fun x i u => Host.scatterAdd scatter_S16384_S278528x1_S278528_n_0_0_1 x i u) : (⟨S16384, .f32⟩ : BufTy).Contents (Elt F) → (⟨S278528x1, .i32⟩ : BufTy).Contents (Elt F) → (⟨S278528, .f32⟩ : BufTy).Contents (Elt F) → (⟨S16384, .f32⟩ : BufTy).Contents (Elt F)),
    nullary main_cst_11 (constant S_ .f32 0x00000000#32),
    unary main_cst_11 main_v56 (broadcastInDim S16384 ![] bcast_S_S16384 : (⟨S_, .f32⟩ : BufTy).Contents (Elt F) → (⟨S16384, .f32⟩ : BufTy).Contents (Elt F)),
    binary main_v55 main_v56 main_v57 (cmpf .ogt : (⟨S16384, .f32⟩ : BufTy).Contents (Elt F) → (⟨S16384, .f32⟩ : BufTy).Contents (Elt F) → (⟨S16384, .i1⟩ : BufTy).Contents (Elt F)),
    unary main_v55 main_v58 (Host.rsqrt : (⟨S16384, .f32⟩ : BufTy).Contents (Elt F) → (⟨S16384, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S16384, .f32⟩) main_call2_v1) (broadcastInDim S16384 ![] bcast_S_S16384),
    TRef.ternary (TRef.of (T := ⟨S16384, .i1⟩) main_v57) (TRef.of (T := ⟨S16384, .f32⟩) main_v58) (TRef.of (T := ⟨S16384, .f32⟩) main_call2_v1) (TRef.of (T := ⟨S16384, .f32⟩) main_v59) select,
    nullary main_c_13 (constantI S_ 32 0#32),
    unary main_c_13 main_v60 (broadcastInDim S278528 ![] bcast_S_S278528 : (⟨S_, .i32⟩ : BufTy).Contents (Elt F) → (⟨S278528, .i32⟩ : BufTy).Contents (Elt F)),
    binary main_v50 main_v60 main_v61 (cmpi .slt : (⟨S278528, .i32⟩ : BufTy).Contents (Elt F) → (⟨S278528, .i32⟩ : BufTy).Contents (Elt F) → (⟨S278528, .i1⟩ : BufTy).Contents (Elt F)),
    nullary main_c_14 (constantI S_ 32 16384#32),
    unary main_c_14 main_v62 (broadcastInDim S278528 ![] bcast_S_S278528 : (⟨S_, .i32⟩ : BufTy).Contents (Elt F) → (⟨S278528, .i32⟩ : BufTy).Contents (Elt F)),
    binary main_v50 main_v62 main_v63 (addi : (⟨S278528, .i32⟩ : BufTy).Contents (Elt F) → (⟨S278528, .i32⟩ : BufTy).Contents (Elt F) → (⟨S278528, .i32⟩ : BufTy).Contents (Elt F)),
    ternary main_v61 main_v63 main_v50 main_v64 (select : (⟨S278528, .i1⟩ : BufTy).Contents (Elt F) → (⟨S278528, .i32⟩ : BufTy).Contents (Elt F) → (⟨S278528, .i32⟩ : BufTy).Contents (Elt F) → (⟨S278528, .i32⟩ : BufTy).Contents (Elt F)),
    unary main_v64 main_v65 (broadcastInDim S278528x1 ![0] bcast_S278528_S278528x1_0 : (⟨S278528, .i32⟩ : BufTy).Contents (Elt F) → (⟨S278528x1, .i32⟩ : BufTy).Contents (Elt F)),
    binary main_v59 main_v65 main_v66 ((fun x i => Host.gather gather_S16384_S278528x1_S278528_n_0_n_n_0_1_1 x i) : (⟨S16384, .f32⟩ : BufTy).Contents (Elt F) → (⟨S278528x1, .i32⟩ : BufTy).Contents (Elt F) → (⟨S278528, .f32⟩ : BufTy).Contents (Elt F)),
    nullary main_c_15 (constantI S_ 32 0#32),
    unary main_c_15 main_v67 (broadcastInDim S278528 ![] bcast_S_S278528 : (⟨S_, .i32⟩ : BufTy).Contents (Elt F) → (⟨S278528, .i32⟩ : BufTy).Contents (Elt F)),
    binary main_v51 main_v67 main_v68 (cmpi .slt : (⟨S278528, .i32⟩ : BufTy).Contents (Elt F) → (⟨S278528, .i32⟩ : BufTy).Contents (Elt F) → (⟨S278528, .i1⟩ : BufTy).Contents (Elt F)),
    nullary main_c_16 (constantI S_ 32 16384#32),
    unary main_c_16 main_v69 (broadcastInDim S278528 ![] bcast_S_S278528 : (⟨S_, .i32⟩ : BufTy).Contents (Elt F) → (⟨S278528, .i32⟩ : BufTy).Contents (Elt F)),
    binary main_v51 main_v69 main_v70 (addi : (⟨S278528, .i32⟩ : BufTy).Contents (Elt F) → (⟨S278528, .i32⟩ : BufTy).Contents (Elt F) → (⟨S278528, .i32⟩ : BufTy).Contents (Elt F)),
    ternary main_v68 main_v70 main_v51 main_v71 (select : (⟨S278528, .i1⟩ : BufTy).Contents (Elt F) → (⟨S278528, .i32⟩ : BufTy).Contents (Elt F) → (⟨S278528, .i32⟩ : BufTy).Contents (Elt F) → (⟨S278528, .i32⟩ : BufTy).Contents (Elt F)),
    unary main_v71 main_v72 (broadcastInDim S278528x1 ![0] bcast_S278528_S278528x1_0 : (⟨S278528, .i32⟩ : BufTy).Contents (Elt F) → (⟨S278528x1, .i32⟩ : BufTy).Contents (Elt F)),
    binary main_v59 main_v72 main_v73 ((fun x i => Host.gather gather_S16384_S278528x1_S278528_n_0_n_n_0_1_1 x i) : (⟨S16384, .f32⟩ : BufTy).Contents (Elt F) → (⟨S278528x1, .i32⟩ : BufTy).Contents (Elt F) → (⟨S278528, .f32⟩ : BufTy).Contents (Elt F)),
    binary main_v66 main_v73 main_v74 (mulf : (⟨S278528, .f32⟩ : BufTy).Contents (Elt F) → (⟨S278528, .f32⟩ : BufTy).Contents (Elt F) → (⟨S278528, .f32⟩ : BufTy).Contents (Elt F)),
    nullary main_c_17 (constantI S_ 32 0#32),
    unary main_c_17 main_v75 (broadcastInDim S278528 ![] bcast_S_S278528 : (⟨S_, .i32⟩ : BufTy).Contents (Elt F) → (⟨S278528, .i32⟩ : BufTy).Contents (Elt F)),
    binary main_v50 main_v75 main_v76 (cmpi .slt : (⟨S278528, .i32⟩ : BufTy).Contents (Elt F) → (⟨S278528, .i32⟩ : BufTy).Contents (Elt F) → (⟨S278528, .i1⟩ : BufTy).Contents (Elt F)),
    nullary main_c_18 (constantI S_ 32 16384#32),
    unary main_c_18 main_v77 (broadcastInDim S278528 ![] bcast_S_S278528 : (⟨S_, .i32⟩ : BufTy).Contents (Elt F) → (⟨S278528, .i32⟩ : BufTy).Contents (Elt F)),
    binary main_v50 main_v77 main_v78 (addi : (⟨S278528, .i32⟩ : BufTy).Contents (Elt F) → (⟨S278528, .i32⟩ : BufTy).Contents (Elt F) → (⟨S278528, .i32⟩ : BufTy).Contents (Elt F)),
    ternary main_v76 main_v78 main_v50 main_v79 (select : (⟨S278528, .i1⟩ : BufTy).Contents (Elt F) → (⟨S278528, .i32⟩ : BufTy).Contents (Elt F) → (⟨S278528, .i32⟩ : BufTy).Contents (Elt F) → (⟨S278528, .i32⟩ : BufTy).Contents (Elt F)),
    unary main_v79 main_v80 (broadcastInDim S278528x1 ![0] bcast_S278528_S278528x1_0 : (⟨S278528, .i32⟩ : BufTy).Contents (Elt F) → (⟨S278528x1, .i32⟩ : BufTy).Contents (Elt F)),
    binary main_v48 main_v80 main_v81 ((fun x i => Host.gather gather_S16384x32_S278528x1_S278528x32_1_0_n_n_0_1_132 x i) : (⟨S16384x32, .f32⟩ : BufTy).Contents (Elt F) → (⟨S278528x1, .i32⟩ : BufTy).Contents (Elt F) → (⟨S278528x32, .f32⟩ : BufTy).Contents (Elt F)),
    unary main_v74 main_v82 (broadcastInDim S278528x1 ![0] bcast_S278528_S278528x1_0 : (⟨S278528, .f32⟩ : BufTy).Contents (Elt F) → (⟨S278528x1, .f32⟩ : BufTy).Contents (Elt F)),
    unary main_v82 main_v83 (broadcastInDim S278528x32 ![0, 1] bcast_S278528x1_S278528x32_0_1 : (⟨S278528x1, .f32⟩ : BufTy).Contents (Elt F) → (⟨S278528x32, .f32⟩ : BufTy).Contents (Elt F)),
    binary main_v81 main_v83 main_v84 (mulf : (⟨S278528x32, .f32⟩ : BufTy).Contents (Elt F) → (⟨S278528x32, .f32⟩ : BufTy).Contents (Elt F) → (⟨S278528x32, .f32⟩ : BufTy).Contents (Elt F)),
    nullary main_cst_19 (constant S_ .f32 0x00000000#32),
    unary main_cst_19 main_v85 (broadcastInDim S16384x32 ![] bcast_S_S16384x32 : (⟨S_, .f32⟩ : BufTy).Contents (Elt F) → (⟨S16384x32, .f32⟩ : BufTy).Contents (Elt F)),
    unary main_v51 main_v86 (broadcastInDim S278528x1 ![0] bcast_S278528_S278528x1_0 : (⟨S278528, .i32⟩ : BufTy).Contents (Elt F) → (⟨S278528x1, .i32⟩ : BufTy).Contents (Elt F)),
    ternary main_v85 main_v86 main_v84 main_v87 ((fun x i u => Host.scatterAdd scatter_S16384x32_S278528x1_S278528x32_1_0_0_1 x i u) : (⟨S16384x32, .f32⟩ : BufTy).Contents (Elt F) → (⟨S278528x1, .i32⟩ : BufTy).Contents (Elt F) → (⟨S278528x32, .f32⟩ : BufTy).Contents (Elt F) → (⟨S16384x32, .f32⟩ : BufTy).Contents (Elt F)),
    unary main_arg5 main_v88 (broadcastInDim S1x32 ![1] bcast_S32_S1x32_1 : (⟨S32, .f32⟩ : BufTy).Contents (Elt F) → (⟨S1x32, .f32⟩ : BufTy).Contents (Elt F)),
    unary main_v88 main_v89 (broadcastInDim S16384x32 ![0, 1] bcast_S1x32_S16384x32_0_1 : (⟨S1x32, .f32⟩ : BufTy).Contents (Elt F) → (⟨S16384x32, .f32⟩ : BufTy).Contents (Elt F)),
    binary main_v87 main_v89 main_v90 (addf : (⟨S16384x32, .f32⟩ : BufTy).Contents (Elt F) → (⟨S16384x32, .f32⟩ : BufTy).Contents (Elt F) → (⟨S16384x32, .f32⟩ : BufTy).Contents (Elt F)),
    unary main_v90 main_v91 ((transpose S32x16384 [1, 0] · transposes_S16384x32_S32x16384_1_0) : (⟨S16384x32, .f32⟩ : BufTy).Contents (Elt F) → (⟨S32x16384, .f32⟩ : BufTy).Contents (Elt F)),
    binary main_v90 main_v91 main_v92 ((fun l r => Host.dotGeneral dot_S16384x32_S32x16384_S16384x16384_1_0_0_1_n_n none l r) : (⟨S16384x32, .f32⟩ : BufTy).Contents (Elt F) → (⟨S32x16384, .f32⟩ : BufTy).Contents (Elt F) → (⟨S16384x16384, .f32⟩ : BufTy).Contents (Elt F)),
    unary main_v92 main_v93 (Host.negf : (⟨S16384x16384, .f32⟩ : BufTy).Contents (Elt F) → (⟨S16384x16384, .f32⟩ : BufTy).Contents (Elt F)),
    unary main_v93 main_v94 (Host.exp : (⟨S16384x16384, .f32⟩ : BufTy).Contents (Elt F) → (⟨S16384x16384, .f32⟩ : BufTy).Contents (Elt F)),
    nullary main_cst_20 (constant S_ .f32 0x3F800000#32),
    unary main_cst_20 main_v95 (broadcastInDim S16384x16384 ![] bcast_S_S16384x16384 : (⟨S_, .f32⟩ : BufTy).Contents (Elt F) → (⟨S16384x16384, .f32⟩ : BufTy).Contents (Elt F)),
    binary main_v95 main_v94 main_v96 (addf : (⟨S16384x16384, .f32⟩ : BufTy).Contents (Elt F) → (⟨S16384x16384, .f32⟩ : BufTy).Contents (Elt F) → (⟨S16384x16384, .f32⟩ : BufTy).Contents (Elt F)),
    nullary main_cst_21 (constant S_ .f32 0x3F800000#32),
    unary main_cst_21 main_v97 (broadcastInDim S16384x16384 ![] bcast_S_S16384x16384 : (⟨S_, .f32⟩ : BufTy).Contents (Elt F) → (⟨S16384x16384, .f32⟩ : BufTy).Contents (Elt F)),
    binary main_v97 main_v96 main_v98 (Host.divf : (⟨S16384x16384, .f32⟩ : BufTy).Contents (Elt F) → (⟨S16384x16384, .f32⟩ : BufTy).Contents (Elt F) → (⟨S16384x16384, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩

/-- The whole line is the embeddings' operations followed by the decoder's. -/
theorem ops_split : (ops : List (HloOp τ sig (Elt F))) = opsPrefix ++ opsTail := rfl

/-- Running one line after another is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

set_option maxRecDepth 8192 in
set_option maxHeartbeats 51600000 in
/-- On every device, from any memory with zero counters: every weakly fair execution of @main terminates with each
    buffer at the fold of the operations' results over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

end Cert.RefRun

end
-- ==== Proof.RefValue.lean ====
/-
  The reference program's decoder, read index by index.

  For any array `z` of node embeddings (16384 rows of 32 features) the reference forms the matrix product of `z` with
  its transpose — at `(a, b)` the sum over the 32 features `k` of `z[a,k] · zᵀ[k,b]`, and `zᵀ[k,b] = z[b,k]` — and
  then `1 / (1 + e^(-s))` of that sum `s`, which is the logistic function of `s` by definition.  So the decoder's value
  is the specified adjacency of `z`.  No algebraic law is used: each operation is read at an index and the two sums
  are the same sum, term by term.
-/
import proofs.«101118_j51513837748919_1_alg».proof.Proof.Spec
import proofs.«101118_j51513837748919_1_alg».proof.ReferenceIdeal
import proofs.«101118_j51513837748919_1_alg».proof.Proof.Gen.ReferenceIdeal
import Idealize.ShloMosaic.Lib.ValueIdx
import Idealize.ShloMosaic.Lib.IdealHost
import Idealize.ShloMosaic.Lib.Pipeline.Value
import Idealize.ShloMosaic.PureOps.Ideal.Laws

noncomputable section

open scoped BigOperators

namespace Cert.RefValue

open Cert.ReferenceIdeal Cert.ReferenceIdeal.Gen Idealize.ShloMosaic Idealize.ShloMosaic.ValueIdx

/-- The left index of the product at `(a, b)` and contraction position `k` is `(a, k)`; the right one is `(k, b)`:
    the only contracted axes are the left operand's second and the right operand's first. -/
theorem dot_apply (l : FVec Ideal S16384x32 .f32) (r : FVec Ideal S32x16384 .f32) (a b : Fin 16384) :
    Host.dotGeneral (F := Ideal) dot_S16384x32_S32x16384_S16384x16384_1_0_0_1_n_n none l r (ix2 a b)
      = ∑ k : Fin 32, l (ix2 a k) * r (ix2 k b) := by
  simp only [Host.dotGeneral]
  rw [Ideal.dotGeneral_apply,
    ← Equiv.sum_comp (contrEquiv1 dot_S16384x32_S32x16384_S16384x16384_1_0_0_1_n_n 32 rfl rfl).symm]
  refine Finset.sum_congr rfl fun k _ => ?_
  have hk := contrEquiv1_symm_val dot_S16384x32_S32x16384_S16384x16384_1_0_0_1_n_n 32 rfl rfl k
  have el : dot_S16384x32_S32x16384_S16384x16384_1_0_0_1_n_n.lhsIdx (ix2 a b)
      ((contrEquiv1 dot_S16384x32_S32x16384_S16384x16384_1_0_0_1_n_n 32 rfl rfl).symm k) = ix2 a k :=
    funext fun d => Fin.ext (by
      match d with
      | ⟨0, _⟩ => rfl
      | ⟨1, _⟩ =>
        exact (dot_S16384x32_S32x16384_S16384x16384_1_0_0_1_n_n.lhsIdx_val_of_single rfl (ix2 a b) _).trans hk)
  have er : dot_S16384x32_S32x16384_S16384x16384_1_0_0_1_n_n.rhsIdx (ix2 a b)
      ((contrEquiv1 dot_S16384x32_S32x16384_S16384x16384_1_0_0_1_n_n 32 rfl rfl).symm k) = ix2 k b :=
    funext fun d => Fin.ext (by
      match d with
      | ⟨0, _⟩ =>
        exact (dot_S16384x32_S32x16384_S16384x16384_1_0_0_1_n_n.rhsIdx_val_of_single rfl (ix2 a b) _).trans hk
      | ⟨1, _⟩ => rfl)
  rw [el, er]

/-- The transpose at `(k, b)` is the array at `(b, k)`. -/
theorem transpose_at (z : FVec Ideal S16384x32 .f32) (k : Fin 32) (b : Fin 16384) :
    transpose S32x16384 [1, 0] z transposes_S16384x32_S32x16384_1_0 (ix2 k b) = z (ix2 b k) :=
  transpose_apply [1, 0] z transposes_S16384x32_S32x16384_1_0 (ix2 k b) (ix2 b k)
    (fun d => match d with | ⟨0, _⟩ => rfl | ⟨1, _⟩ => rfl)

/-- The constant one, broadcast to the whole square, is one at every index. -/
theorem ones_at (i : S16384x16384.Idx) :
    broadcastInDim S16384x16384 ![] bcast_S_S16384x16384 (constant (F := Ideal) S_ .f32 0x3F800000#32) i = (1 : EReal) := by
  rw [broadcastInDim_scalar_apply]
  exact Ideal.ofBits_one_f32

/-- The product of the embeddings with their own transpose at `(a, b)`: the sum over the 32 features `k` of
    `z[a,k] · z[b,k]`. -/
theorem gram_at (z : FVec Ideal S16384x32 .f32) (a b : Fin 16384) :
    Host.dotGeneral (F := Ideal) dot_S16384x32_S32x16384_S16384x16384_1_0_0_1_n_n none z
        (transpose S32x16384 [1, 0] z transposes_S16384x32_S32x16384_1_0) (ix2 a b)
      = ∑ k : Fin 32, z (ix2 a k) * z (ix2 b k) := by
  rw [dot_apply]
  exact Finset.sum_congr rfl fun k _ => by rw [transpose_at]

/-- The reference's decoder applied to any embeddings `z` is the specified adjacency of `z`: at `(a, b)` the product
    of `z` with its transpose is `∑ k, z[a,k] · z[b,k]`, the two broadcast constants are one, and
    `1 / (1 + e^(-s))` is the logistic function of `s` by definition. -/
theorem tail_eq (z : FVec Ideal S16384x32 .f32) :
    Host.divf (F := Ideal) (broadcastInDim S16384x16384 ![] bcast_S_S16384x16384 (constant (F := Ideal) S_ .f32 0x3F800000#32))
      (addf (broadcastInDim S16384x16384 ![] bcast_S_S16384x16384 (constant (F := Ideal) S_ .f32 0x3F800000#32))
        (Host.exp (Host.negf (Host.dotGeneral dot_S16384x32_S32x16384_S16384x16384_1_0_0_1_n_n none z
          (transpose S32x16384 [1, 0] z transposes_S16384x32_S32x16384_1_0)))))
    = Cert.AdjSpec.adj z := by
  funext i
  obtain ⟨a, b, rfl⟩ : ∃ (a : Fin 16384) (b : Fin 16384), i = ix2 a b := ⟨i 0, i 1, eq_ix2 i⟩
  show Ideal.div
      (broadcastInDim S16384x16384 ![] bcast_S_S16384x16384 (constant (F := Ideal) S_ .f32 0x3F800000#32) (ix2 a b))
      (broadcastInDim S16384x16384 ![] bcast_S_S16384x16384 (constant (F := Ideal) S_ .f32 0x3F800000#32) (ix2 a b)
        + Ideal.exp (-(Host.dotGeneral (F := Ideal) dot_S16384x32_S32x16384_S16384x16384_1_0_0_1_n_n none z
          (transpose S32x16384 [1, 0] z transposes_S16384x32_S32x16384_1_0) (ix2 a b))))
    = Ideal.logistic (∑ k : Fin 32, z (ix2 a k) * z (ix2 b k))
  rw [ones_at, gram_at]
  rfl

end Cert.RefValue

end
-- ==== Proof.RefResults.lean ====
/-
  The reference's two results as functions of its arguments.

  Cutting the reference's fold of 129 operations after the 119th: no operation of the decoder's ten writes the
  embeddings' buffer, so the second result is the embeddings `z` the first 119 operations leave; the first result is
  the decoder's ten operations applied to `z` — the transpose, the product of `z` with it, and `1 / (1 + exp (-s))`
  entry by entry —, which is the decoder `adj z` of the specification; and no operation at all writes an argument.
-/
import proofs.«101118_j51513837748919_1_alg».proof.Proof.RefRun
import proofs.«101118_j51513837748919_1_alg».proof.Proof.RefValue
import proofs.«101118_j51513837748919_1_alg».proof.Proof.Spec

set_option maxRecDepth 16384

noncomputable section

namespace Cert.RefResults

open Cert.ReferenceIdeal Cert.ReferenceIdeal.Gen Cert.RefRun Idealize.ShloMosaic Idealize.ShloMosaic.TcCoe Idealize.SL.Sem Idealize.ShloMosaic.StableHlo

variable (m : (ℓ : Loc nD τ sig) → Buf (Elt Ideal) ℓ)

/-- The node embeddings the reference's first 119 operations leave on device `c`. -/
def zRef (c : Dev nD) : FVec Ideal S16384x32 .f32 :=
  after (opsPrefix (F := Ideal)) (launchContents m c) (Proc.devRef .tc main_v90)

/-- No operation of the decoder writes the embeddings' buffer. -/
theorem res_v90 (c : Dev nD) :
    after (ops (F := Ideal)) (launchContents m c) (Proc.devRef .tc main_v90) = zRef m c := by
  rw [ops_split, after_append]
  unfold zRef
  generalize after (opsPrefix (F := Ideal)) (launchContents m c) = W
  dsimp only [opsTail]
  after_results

/-- The first result is the decoder of the embeddings. -/
theorem res_v98 (c : Dev nD) :
    after (ops (F := Ideal)) (launchContents m c) (Proc.devRef .tc main_v98) = Cert.AdjSpec.adj (zRef m c) := by
  rw [ops_split, after_append]
  unfold zRef
  generalize after (opsPrefix (F := Ideal)) (launchContents m c) = W
  dsimp only [opsTail]
  after_results
  exact Cert.RefValue.tail_eq _

set_option maxHeartbeats 4000000 in
theorem res_arg0 (c : Dev nD) : after (ops (F := Ideal)) (launchContents m c) (Proc.devRef .tc main_arg0) = m ((c.tc : Thread nD τ).loc main_arg0) := by
  after_results_simp <;> rfl
set_option maxHeartbeats 4000000 in
theorem res_arg1 (c : Dev nD) : after (ops (F := Ideal)) (launchContents m c) (Proc.devRef .tc main_arg1) = m ((c.tc : Thread nD τ).loc main_arg1) := by
  after_results_simp <;> rfl
set_option maxHeartbeats 4000000 in
theorem res_arg2 (c : Dev nD) : after (ops (F := Ideal)) (launchContents m c) (Proc.devRef .tc main_arg2) = m ((c.tc : Thread nD τ).loc main_arg2) := by
  after_results_simp <;> rfl
set_option maxHeartbeats 4000000 in
theorem res_arg3 (c : Dev nD) : after (ops (F := Ideal)) (launchContents m c) (Proc.devRef .tc main_arg3) = m ((c.tc : Thread nD τ).loc main_arg3) := by
  after_results_simp <;> rfl
set_option maxHeartbeats 4000000 in
theorem res_arg4 (c : Dev nD) : after (ops (F := Ideal)) (launchContents m c) (Proc.devRef .tc main_arg4) = m ((c.tc : Thread nD τ).loc main_arg4) := by
  after_results_simp <;> rfl
set_option maxHeartbeats 4000000 in
theorem res_arg5 (c : Dev nD) : after (ops (F := Ideal)) (launchContents m c) (Proc.devRef .tc main_arg5) = m ((c.tc : Thread nD τ).loc main_arg5) := by
  after_results_simp <;> rfl

/-- The reference's run with its results named: the adjacency prediction is the decoder of the embeddings, the second
    result the embeddings, the arguments unchanged. -/
theorem run_value (ρ : Dev nD → PrngReg) :
    θ_run defs (onTc (τ := τ) (main (F := Ideal))) ⟨m, fun _ => 0, ρ⟩ fun r => ∀ c : Dev nD,
      r.2.mem ((c.tc : Thread nD τ).loc main_v98) = Cert.AdjSpec.adj (zRef m c)
      ∧ r.2.mem ((c.tc : Thread nD τ).loc main_v90) = zRef m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v98).trans (res_v98 m c), (h c main_v90).trans (res_v90 m c),
      (h c main_arg0).trans (res_arg0 m c), (h c main_arg1).trans (res_arg1 m c), (h c main_arg2).trans (res_arg2 m c),
      (h c main_arg3).trans (res_arg3 m c), (h c main_arg4).trans (res_arg4 m c), (h c main_arg5).trans (res_arg5 m c)⟩)
    (Cert.RefRun.run (F := Ideal) m ρ)

end Cert.RefResults

end
-- ==== Proof.PrefixEq.lean ====
/-
  The two programs compute the same node embeddings.

  Before its decoder region the kernel program runs, operation for operation, the host operations with which the
  reference computes the embeddings `z`: the two graph-convolution layers (products with the weight matrices, the
  degree normalisation gathered along the edges, the scatter-add over destinations, the biases).  Folding each
  program's operations over memories that agree on the six arguments therefore gives the same function of the
  arguments: the same operations applied to the same operands, in the same order.  Nothing is computed here; the two
  composed terms are compared as terms.
-/
import proofs.«101118_j51513837748919_1_alg».proof.Proof.Gen.KernelIdeal.Launch
import proofs.«101118_j51513837748919_1_alg».proof.Proof.RefRun
import Idealize.ShloMosaic.Lib.StableHlo.Run
import Idealize.ShloMosaic.PureOps.Ideal

noncomputable section

namespace Cert.PrefixEq

open Idealize.ShloMosaic Idealize.ShloMosaic.TcCoe Idealize.SL.Sem Idealize.ShloMosaic.StableHlo

/-- Joining two arrays along an axis depends only on the two arrays: equal pieces give equal joins.  (The join's
    side condition mentions the list of pieces, so this congruence has to be stated for the rewriting of the pieces
    to go under it.) -/
theorem concatenate_pair_congr {α : Type} {t : Shape} {a : Fin t.rank} {s1 s2 : Shape}
    {x x' : s1.Idx → α} {y y' : s2.Idx → α} (h : Shape.Concatenates [s1, s2] t a) (hx : x = x') (hy : y = y') :
    concatenate t a [⟨s1, x⟩, ⟨s2, y⟩] h = concatenate t a [⟨s1, x'⟩, ⟨s2, y'⟩] h := by
  subst hx; subst hy; rfl

attribute [local congr] concatenate_pair_congr

set_option maxRecDepth 8192 in
set_option maxHeartbeats 51600000 in
/-- From memories that agree on the six arguments, the kernel program's host operations before its region leave in
    the embeddings' buffer what the reference's first 119 operations leave in theirs. -/
theorem prefix_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0)
        = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
        = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
        = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
        = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4)
        = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5)
        = m ((c.tc : Thread Cert.KernelIdeal.nD Cert.KernelIdeal.τ).loc Cert.KernelIdeal.main_arg5)) :
    (StableHlo.after (List.flatten [Cert.KernelIdeal.Gen.hostOps0 (F := Ideal), Cert.KernelIdeal.Gen.hostOps0_1,
        Cert.KernelIdeal.Gen.hostOps0_2, Cert.KernelIdeal.Gen.hostOps0_3, Cert.KernelIdeal.Gen.hostOps0_4,
        Cert.KernelIdeal.Gen.hostOps0_5, Cert.KernelIdeal.Gen.hostOps0_6]) (fun b => m (c, b))
        Cert.KernelIdeal.main_v90 : (⟨2, ![16384, 32]⟩ : Shape).Idx → EReal)
      = StableHlo.after (Cert.RefRun.opsPrefix (F := Ideal)) (StableHlo.launchContents m' c)
          (Proc.devRef .tc Cert.ReferenceIdeal.main_v90) := by
  simp only [Cert.KernelIdeal.Gen.hostOps0, Cert.KernelIdeal.Gen.hostOps0_1, Cert.KernelIdeal.Gen.hostOps0_2,
    Cert.KernelIdeal.Gen.hostOps0_3, Cert.KernelIdeal.Gen.hostOps0_4, Cert.KernelIdeal.Gen.hostOps0_5,
    Cert.KernelIdeal.Gen.hostOps0_6, Cert.RefRun.opsPrefix, List.flatten_cons, List.flatten_nil, List.append_nil,
    List.cons_append, List.nil_append]
  after_results_simp
  rw [show StableHlo.launchContents m' c (Proc.devRef .tc Cert.ReferenceIdeal.main_arg0)
        = m (c, Proc.devRef .tc Cert.KernelIdeal.main_arg0) from h0,
    show StableHlo.launchContents m' c (Proc.devRef .tc Cert.ReferenceIdeal.main_arg1)
        = m (c, Proc.devRef .tc Cert.KernelIdeal.main_arg1) from h1,
    show StableHlo.launchContents m' c (Proc.devRef .tc Cert.ReferenceIdeal.main_arg2)
        = m (c, Proc.devRef .tc Cert.KernelIdeal.main_arg2) from h2,
    show StableHlo.launchContents m' c (Proc.devRef .tc Cert.ReferenceIdeal.main_arg3)
        = m (c, Proc.devRef .tc Cert.KernelIdeal.main_arg3) from h3,
    show StableHlo.launchContents m' c (Proc.devRef .tc Cert.ReferenceIdeal.main_arg4)
        = m (c, Proc.devRef .tc Cert.KernelIdeal.main_arg4) from h4,
    show StableHlo.launchContents m' c (Proc.devRef .tc Cert.ReferenceIdeal.main_arg5)
        = m (c, Proc.devRef .tc Cert.KernelIdeal.main_arg5) from h5]
  rfl

end Cert.PrefixEq

end
-- ==== Proof.lean ====
/-
  A graph auto-encoder: two graph-convolution layers on the host produce the node embeddings `z` (16384 × 32), and a
  decoder predicts the adjacency `adj[a, b] = logistic (∑ₖ z[a, k] · z[b, k])` (16384 × 16384).  The kernel program
  computes the decoder in a region on an 8 × 8 grid of 2048 × 2048 blocks, the product of each pair of row blocks fed
  to the matrix unit in a narrower float format; the reference computes it on the host as the product of `z` with
  its transpose followed by `1 / (1 + exp (-s))`.  The host operations that compute `z` are the same in both.

  Over the extended reals the change of float format is the identity, the matrix unit's product into a zero
  accumulator and the host's product are the same sum of 32 products, and the logistic function is by definition
  `1 / (1 + exp (-s))`; the 64 blocks tile the result.  So both programs end with the decoder of the same `z`, and
  with `z` itself as their second result.  No law that needs finiteness is used: the precondition is never opened.

  The frames: each kernel program is its host operations followed by the region, whose two input windows read the one
  array `z` (the buffer behind it is split along the share between them); the reference is a straight line of host
  operations.  All three run to the end and leave the six argument arrays as launched, since no host operation writes
  an argument and no window stages one.  The idealization rewrote no operation, so there is nothing to preserve.
-/
import proofs.«101118_j51513837748919_1_alg».proof.Defs
import proofs.«101118_j51513837748919_1_alg».proof.Proof.Gen.Kernel
import proofs.«101118_j51513837748919_1_alg».proof.Proof.Gen.KernelIdeal
import proofs.«101118_j51513837748919_1_alg».proof.Proof.Gen.ReferenceIdeal
import proofs.«101118_j51513837748919_1_alg».proof.Proof.Gen.Pre_finite_inputs
import proofs.«101118_j51513837748919_1_alg».proof.Proof.RunK
import proofs.«101118_j51513837748919_1_alg».proof.Proof.ValueKI
import proofs.«101118_j51513837748919_1_alg».proof.Proof.RefResults
import proofs.«101118_j51513837748919_1_alg».proof.Proof.PrefixEq
import Idealize.ShloMosaic.Adequacy
import Idealize.ShloMosaic.Init

noncomputable section

namespace Cert.Proof

open Idealize.ShloMosaic Idealize.ShloMosaic.TcCoe Idealize.SL.Sem

/-- The kernel program, as printed, runs to the end and leaves its arguments unchanged. -/
theorem frame_k : Cert.frame_Kernel := fun m ρ _ => Cert.Kernel.Region.frame m ρ

/-- So does its idealization. -/
theorem frame_ki : Cert.frame_KernelIdeal := fun m ρ _ => Cert.KernelIdeal.Region.frame m ρ

/-- The reference runs to the end and writes no argument. -/
theorem frame_ri : Cert.frame_ReferenceIdeal := fun m ρ _ =>
  (θ_run Cert.ReferenceIdeal.defs _ _).mono (fun _ h c => (h c).2.2) (Cert.RefResults.run_value m ρ)

/-- Both programs end with the decoder of the same embeddings and with the embeddings: the kernel's by the region's
    blocks tiling the result, the reference's by reading its last ten operations, the embeddings the same because the
    host operations that compute them are the same and the arguments agree. -/
theorem algebraic : Cert.algebraic_KernelIdeal_ReferenceIdeal := by
  intro m ρ m' ρ' _ hagree
  refine ⟨fun c => Cert.AdjSpec.adj (Cert.KernelIdeal.Region.V m c Cert.KernelIdeal.main_v90),
    fun c => Cert.KernelIdeal.Region.V m c Cert.KernelIdeal.main_v90,
    Cert.KernelIdeal.Region.run_value m ρ, ?_⟩
  refine (θ_run Cert.ReferenceIdeal.defs _ _).mono (fun _ h c => ?_) (Cert.RefResults.run_value m' ρ')
  obtain ⟨h98, h90, hargs⟩ := h c
  have hz : Cert.RefResults.zRef m' c = Cert.KernelIdeal.Region.V m c Cert.KernelIdeal.main_v90 :=
    (Cert.PrefixEq.prefix_eq m m' c (hagree c).1 (hagree c).2.1 (hagree c).2.2.1 (hagree c).2.2.2.1 (hagree c).2.2.2.2.1
      (hagree c).2.2.2.2.2).symm
  exact ⟨h98.trans (congrArg Cert.AdjSpec.adj hz), h90.trans hz, hargs⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
